-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_7000" .f32 0x3915CBEC#32 ((1 / 7000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S100000x128 : Shape := ⟨2, ![100000, 128]⟩
abbrev S512 : Shape := ⟨1, ![512]⟩
abbrev S100000 : Shape := ⟨1, ![100000]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x128 .f32) (main_arg1 : FVec F S100000x128 .f32) (main_arg2 : IVec S512 32) (main_arg3 : IVec S100000 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  main_v12
-- ==== Kernel.lean ====
abbrev S512x128 : Shape := ⟨2, ![512, 128]⟩
abbrev S100000x128 : Shape := ⟨2, ![100000, 128]⟩
abbrev S512 : Shape := ⟨1, ![512]⟩
abbrev S100000 : Shape := ⟨1, ![100000]⟩
abbrev S50000x128 : Shape := ⟨2, ![50000, 128]⟩
abbrev S_ : Shape := ⟨0, ![]⟩
abbrev S53248x128 : Shape := ⟨2, ![53248, 128]⟩
abbrev S1x53248x128 : Shape := ⟨3, ![1, 53248, 128]⟩
abbrev S2x53248x128 : Shape := ⟨3, ![2, 53248, 128]⟩
abbrev S50000 : Shape := ⟨1, ![50000]⟩
abbrev S53248 : Shape := ⟨1, ![53248]⟩
abbrev S1x53248 : Shape := ⟨2, ![1, 53248]⟩
abbrev S2x53248 : Shape := ⟨2, ![2, 53248]⟩
abbrev S2x1x53248 : Shape := ⟨3, ![2, 1, 53248]⟩
abbrev S512x1 : Shape := ⟨2, ![512, 1]⟩
abbrev S2x512x1 : Shape := ⟨3, ![2, 512, 1]⟩
abbrev S1x4096x128 : Shape := ⟨3, ![1, 4096, 128]⟩
abbrev S1x1x4096 : Shape := ⟨3, ![1, 1, 4096]⟩
abbrev S1x512x1 : Shape := ⟨3, ![1, 512, 1]⟩
abbrev S4096x128 : Shape := ⟨2, ![4096, 128]⟩
abbrev S128x4096 : Shape := ⟨2, ![128, 4096]⟩
abbrev S512x4096 : Shape := ⟨2, ![512, 4096]⟩
abbrev S1x4096 : Shape := ⟨2, ![1, 4096]⟩

abbrev nBuf : Space → Nat
  | .hbm => 50
  | .vmem => 10
  | .smem => 0
  | _ => 0

abbrev bufTy : (tb : Table) → Fin (tcTables nBuf tb) → BufTy
  | .hbm, ⟨0, _⟩ => ⟨S512x128, .f32⟩
  | .hbm, ⟨1, _⟩ => ⟨S100000x128, .f32⟩
  | .hbm, ⟨2, _⟩ => ⟨S512, .i32⟩
  | .hbm, ⟨3, _⟩ => ⟨S100000, .i32⟩
  | .hbm, ⟨4, _⟩ => ⟨S50000x128, .f32⟩
  | .hbm, ⟨5, _⟩ => ⟨S50000x128, .f32⟩
  | .hbm, ⟨6, _⟩ => ⟨S_, .i32⟩
  | .hbm, ⟨7, _⟩ => ⟨S_, .f32⟩
  | .hbm, ⟨8, _⟩ => ⟨S53248x128, .f32⟩
  | .hbm, ⟨9, _⟩ => ⟨S_, .i32⟩
  | .hbm, ⟨10, _⟩ => ⟨S_, .f32⟩
  | .hbm, ⟨11, _⟩ => ⟨S53248x128, .f32⟩
  | .hbm, ⟨12, _⟩ => ⟨S1x53248x128, .f32⟩
  | .hbm, ⟨13, _⟩ => ⟨S1x53248x128, .f32⟩
  | .hbm, ⟨14, _⟩ => ⟨S2x53248x128, .f32⟩
  | .hbm, ⟨15, _⟩ => ⟨S50000, .i32⟩
  | .hbm, ⟨16, _⟩ => ⟨S50000, .i32⟩
  | .hbm, ⟨17, _⟩ => ⟨S_, .i32⟩
  | .hbm, ⟨18, _⟩ => ⟨S_, .i32⟩
  | .hbm, ⟨19, _⟩ => ⟨S53248, .i32⟩
  | .hbm, ⟨20, _⟩ => ⟨S_, .i32⟩
  | .hbm, ⟨21, _⟩ => ⟨S_, .i32⟩
  | .hbm, ⟨22, _⟩ => ⟨S53248, .i32⟩
  | .hbm, ⟨23, _⟩ => ⟨S1x53248, .i32⟩
  | .hbm, ⟨24, _⟩ => ⟨S1x53248, .i32⟩
  | .hbm, ⟨25, _⟩ => ⟨S2x53248, .i32⟩
  | .hbm, ⟨26, _⟩ => ⟨S2x1x53248, .i32⟩
  | .hbm, ⟨27, _⟩ => ⟨S512x1, .i32⟩
  | .hbm, ⟨28, _⟩ => ⟨S2x512x1, .f32⟩
  | .hbm, ⟨29, _⟩ => ⟨S2x512x1, .f32⟩
  | .hbm, ⟨30, _⟩ => ⟨S1x512x1, .f32⟩
  | .hbm, ⟨31, _⟩ => ⟨S512x1, .f32⟩
  | .hbm, ⟨32, _⟩ => ⟨S1x512x1, .f32⟩
  | .hbm, ⟨33, _⟩ => ⟨S512x1, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S1x512x1, .f32⟩
  | .hbm, ⟨39, _⟩ => ⟨S512x1, .f32⟩
  | .hbm, ⟨40, _⟩ => ⟨S1x512x1, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S512x128, .f32⟩
  | .local _ .vmem, ⟨1, _⟩ => ⟨S1x4096x128, .f32⟩
  | .local _ .vmem, ⟨2, _⟩ => ⟨S1x4096x128, .f32⟩
  | .local _ .vmem, ⟨3, _⟩ => ⟨S512x1, .i32⟩
  | .local _ .vmem, ⟨4, _⟩ => ⟨S1x1x4096, .i32⟩
  | .local _ .vmem, ⟨5, _⟩ => ⟨S1x1x4096, .i32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S100000x128_S50000x128_0_0 : S100000x128.Slices ![0, 0] S50000x128
  slices_S100000x128_S50000x128_50000_0 : S100000x128.Slices ![50000, 0] S50000x128
  pads_S50000x128_S53248x128_032480_000 : S50000x128.Pads (![0, 0] : Fin 2 → Nat) ![3248, 0] ![0, 0] S53248x128
  h_S_ : 0 < S_.numel
  bcast_S53248x128_S1x53248x128_1_2 : S53248x128.BroadcastsInDim S1x53248x128 (![1, 2] : Fin 2 → Fin S1x53248x128.rank)
  concatenates_S1x53248x128_S1x53248x128_S2x53248x128_d0 : Shape.Concatenates [S1x53248x128, S1x53248x128] S2x53248x128 0
  slices_S100000_S50000_0 : S100000.Slices ![0] S50000
  slices_S100000_S50000_50000 : S100000.Slices ![50000] S50000
  pads_S50000_S53248_032480 : S50000.Pads (![0] : Fin 1 → Nat) ![3248] ![0] S53248
  bcast_S53248_S1x53248_1 : S53248.BroadcastsInDim S1x53248 (![1] : Fin 1 → Fin S1x53248.rank)
  concatenates_S1x53248_S1x53248_S2x53248_d0 : Shape.Concatenates [S1x53248, S1x53248] S2x53248 0
  shapeCasts_S2x53248_S2x1x53248 : S2x53248.ShapeCasts S2x1x53248
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  transposes_S4096x128_p1_0_S128x4096 : S4096x128.Transposes [1, 0] S128x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x4096_S512 : S512x4096.Reduces [1] S512
  broadcasts_S512x1_S512x4096 : S512x1.Broadcasts S512x4096
  broadcasts_S1x4096_S512x4096 : S1x4096.Broadcasts S512x4096
  slices_S2x512x1_S1x512x1_0_0_0 : S2x512x1.Slices ![0, 0, 0] S1x512x1
  slices_S2x512x1_S1x512x1_1_0_0 : S2x512x1.Slices ![1, 0, 0] S1x512x1
  bcast_S_S512x1 : S_.BroadcastsInDim S512x1 (![] : Fin 0 → Fin S512x1.rank)
  reducesTo_S512x1_S_d0_1 : S512x1.ReducesTo [0, 1] S_
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x53248x128.size a
  hwx0_1 : ∀ i : grid0.Coords, EltTy.bits .f32 = 32 ∨ (Rect.block (s := S2x53248x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S2x1x53248.size a
  hwx0_3 : ∀ i : grid0.Coords, EltTy.bits .i32 = 32 ∨ (Rect.block (s := S2x1x53248) S1x1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x128 : Shape := ⟨2, ![512, 128]⟩
abbrev S100000x128 : Shape := ⟨2, ![100000, 128]⟩
abbrev S512 : Shape := ⟨1, ![512]⟩
abbrev S100000 : Shape := ⟨1, ![100000]⟩
abbrev S128x100000 : Shape := ⟨2, ![128, 100000]⟩
abbrev S512x100000 : Shape := ⟨2, ![512, 100000]⟩
abbrev S_ : Shape := ⟨0, ![]⟩
abbrev S512x1 : Shape := ⟨2, ![512, 1]⟩
abbrev S1x100000 : Shape := ⟨2, ![1, 100000]⟩

abbrev nBuf : Space → Nat
  | .hbm => 36
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S100000x128, .f32⟩
  | .hbm, ⟨2, _⟩ => ⟨S512, .i32⟩
  | .hbm, ⟨3, _⟩ => ⟨S100000, .i32⟩
  | .hbm, ⟨4, _⟩ => ⟨S128x100000, .f32⟩
  | .hbm, ⟨5, _⟩ => ⟨S512x100000, .f32⟩
  | .hbm, ⟨6, _⟩ => ⟨S_, .f32⟩
  | .hbm, ⟨7, _⟩ => ⟨S512x100000, .f32⟩
  | .hbm, ⟨8, _⟩ => ⟨S512x100000, .f32⟩
  | .hbm, ⟨9, _⟩ => ⟨S512x100000, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x100000, .f32⟩
  | .hbm, ⟨17, _⟩ => ⟨S512x100000, .f32⟩
  | .hbm, ⟨18, _⟩ => ⟨S512x1, .i32⟩
  | .hbm, ⟨19, _⟩ => ⟨S1x100000, .i32⟩
  | .hbm, ⟨20, _⟩ => ⟨S512x100000, .i32⟩
  | .hbm, ⟨21, _⟩ => ⟨S512x100000, .i32⟩
  | .hbm, ⟨22, _⟩ => ⟨S512x100000, .i1⟩
  | .hbm, ⟨23, _⟩ => ⟨S512x100000, .f32⟩
  | .hbm, ⟨24, _⟩ => ⟨S512x100000, .f32⟩
  | .hbm, ⟨25, _⟩ => ⟨S_, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S_S512x100000 : S_.BroadcastsInDim S512x100000 (![] : Fin 0 → Fin S512x100000.rank)
  reducesTo_S512x100000_S512_d1 : S512x100000.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x100000_0_1 : S512x1.BroadcastsInDim S512x100000 (![0, 1] : Fin 2 → Fin S512x100000.rank)
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  reducesTo_S512_S_d0 : S512.ReducesTo [0] S_
  dot_S512x128_S128x100000_S512x100000_1_0_0_1_n_n_wf : DotDims.WF S512x128 S128x100000 S512x100000 [1] [0] [0] [1] [] []

variable [Facts₀]

def dot_S512x128_S128x100000_S512x100000_1_0_0_1_n_n : DotDims S512x128 S128x100000 S512x100000 where
  lhsContracting := [1]
  rhsContracting := [0]
  lhsNonContracting := [0]
  rhsNonContracting := [1]
  lhsBatch := []
  rhsBatch := []
  wf := dot_S512x128_S128x100000_S512x100000_1_0_0_1_n_n_wf

class Facts : Prop extends Facts₀ where

variable [Facts]
-- ==== Proof.PreFacts.lean ====
/-
  From the precondition to facts about the entries of the four arguments.

  The precondition says: every entry of the two float arrays has absolute value below +∞, and every entry of the
  query label vector is at least 0 as a signed 32-bit integer.  An extended real whose absolute value is below +∞
  is a real number; a signed word that is at least 0 is not the word of all ones (which is -1).
-/
import proofs.«164127_j1657857376324_2_alg».proof.Proof.Gen.Pre_finite_inputs
import Idealize.ShloMosaic.Lib.ReduceAll
import Idealize.ShloMosaic.Lib.ValueIdx
import Idealize.ShloMosaic.PureOps.Ideal

noncomputable section

namespace Cert.Nce.PreFacts

open Idealize.ShloMosaic Cert.Pre_finite_inputs

/-- The scalar shape has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The pattern 0x7F800000 denotes +∞. -/
theorem inf_bits : Ideal.ofBits .f32 0x7F800000#32 = (⊤ : EReal) := by
  simp [Ideal.ofBits, Ideal.ieee]

/-- An extended real whose absolute value max x (-x) is below +∞ is a real number. -/
theorem real_of_abs_lt (x : EReal)
    (h : Ideal.cmp .olt (max x (-x)) (Ideal.ofBits .f32 0x7F800000#32) = 1#1) : ∃ r : ℝ, x = (r : EReal) := by
  rw [inf_bits] at h
  unfold Ideal.cmp at h
  rw [ofBool_eq_one, decide_eq_true_eq] at h
  induction x using EReal.rec with
  | bot => simp at h
  | coe r => exact ⟨r, rfl⟩
  | top => simp at h

/-- A word that is at least 0 as a signed integer has a nonnegative signed value. -/
theorem toInt_nonneg (w : BitVec 32) (h : IntOp.cmpi .sge w (0#32) = 1#1) : 0 ≤ w.toInt := by
  unfold IntOp.cmpi at h
  rw [ofBool_eq_one] at h
  simpa [BitVec.sle] using h

/-- A word that is at least 0 as a signed integer is not the word of all ones. -/
theorem ne_allOnes (w : BitVec 32) (h : IntOp.cmpi .sge w (0#32) = 1#1) : w ≠ 4294967295#32 := by
  intro e
  subst e
  revert h
  decide

/-- THE PRECONDITION DECODED: all entries of the two float arrays are reals, and no query label is the word -1. -/
theorem of_pre (x0 : FVec Ideal S512x128 .f32) (x1 : FVec Ideal S100000x128 .f32) (x2 : IVec S512 32) (x3 : IVec S100000 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, x2 i ≠ 4294967295#32) := by
  have e := congrFun h ValueIdx.ix0
  dsimp only [Cert.Pre_finite_inputs.fn, andi] at e
  rw [IntOp.andi_eq_one, IntOp.andi_eq_one] at e
  obtain ⟨⟨e0, e1⟩, e2⟩ := e
  refine ⟨fun i => ?_, fun i => ?_, fun i => ?_⟩
  · exact real_of_abs_lt (x0 i) (Host.reduce_andi_all _ _ _ _ _ e0 i)
  · exact real_of_abs_lt (x1 i) (Host.reduce_andi_all _ _ _ _ _ e1 i)
  · exact ne_allOnes (x2 i) (Host.reduce_andi_all _ _ _ _ _ e2 i)

end Cert.Nce.PreFacts

end
-- ==== Proof.Spec.lean ====
/-
  The loss both programs compute, as one function of the four argument arrays over the extended reals.

  For a query row b and a memory row n the score is the inner product of x[b,:] and feat[n,:]; its weight is
  exp(score / 7000).  Per query row, num is the total weight of the memory rows carrying the query's label and
  den the total weight of all memory rows; the loss is minus the mean over the 512 query rows of log (num / den).
-/
import Idealize.ShloMosaic.PureOps.Ideal
import Idealize.ShloMosaic.Lib.ValueIdx

noncomputable section

namespace Cert.Nce

open Idealize.ShloMosaic Idealize.ShloMosaic.ValueIdx

/-- The query array's shape, the memory bank's, and the two label vectors'. -/
abbrev SQ : Shape := ⟨2, ![512, 128]⟩
abbrev SB : Shape := ⟨2, ![100000, 128]⟩
abbrev SQL : Shape := ⟨1, ![512]⟩
abbrev SBL : Shape := ⟨1, ![100000]⟩

variable (X : SQ.Idx → EReal) (Fe : SB.Idx → EReal) (L : SQL.Idx → BitVec 32) (LF : SBL.Idx → BitVec 32)

/-- The inner product of query row `b` and memory row `n`. -/
def score (b : Fin 512) (n : Fin 100000) : EReal := ∑ k : Fin 128, X (ix2 b k) * Fe (ix2 n k)

/-- The weight of memory row `n` for query row `b`: the exponential of the score over 7000. -/
def wgt (b : Fin 512) (n : Fin 100000) : EReal := Ideal.exp (score X Fe b n * ((1 / 7000 : ℝ) : EReal))

/-- The weight carried by the memory rows whose label is the query's. -/
def num (b : Fin 512) : EReal := ∑ n : Fin 100000, if L (ix1 b) = LF (ix1 n) then wgt X Fe b n else 0

/-- The weight carried by all memory rows. -/
def den (b : Fin 512) : EReal := ∑ n : Fin 100000, wgt X Fe b n

/-- Minus the mean over the query rows of the logarithm of the matching share of the weight. -/
def loss : EReal :=
  Ideal.div (-(Ideal.ofBits .f32 0x00000000#32 + ∑ b : Fin 512, Ideal.log (Ideal.div (num X Fe L LF b) (den X Fe b))))
    (Ideal.ofBits .f32 0x44000000#32)

end Cert.Nce

end
-- ==== Proof.RefAlgebra.lean ====
/-
  The one law of real arithmetic behind the reference's normalisation, over the extended reals.

  For positive real weights w i over a nonempty finite index set, with S their sum and Z = S / N for a positive real N,
  dividing every weight by Z changes neither the masked sum's share of the whole:
    (∑ i, (w i / Z) * m i) / (∑ i, w i / Z) = (∑ i, if hit i then w i else 0) / S,
  where m i is 1 where hit i holds and 0 elsewhere.  Every quantity is a real number with a nonzero divisor, so the
  extended-real division is the real one throughout.
-/
import Idealize.ShloMosaic.PureOps.Ideal
import Idealize.ShloMosaic.PureOps.Ideal.Laws

noncomputable section

namespace Cert.Nce.RefAlgebra

open Idealize.ShloMosaic

/-- A finite sum of coerced reals is the coerced real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two coerced reals, the divisor nonzero, is the coerced real quotient. -/
theorem div_coe_coe (x y : ℝ) (hy : y ≠ 0) : Ideal.div (x : EReal) (y : EReal) = ((x / y : ℝ) : EReal) := by
  rw [Ideal.div_coe hy, ← EReal.coe_mul, mul_one_div]

/-- THE LAW: the masked share of weights normalised by their mean is the masked share of the weights. -/
theorem share_normalized {ι : Type*} [Fintype ι] [Nonempty ι] (w : ι → ℝ) (hw : ∀ i, 0 < w i)
    (hit : ι → Prop) [DecidablePred hit] (N : ℝ) (hN : 0 < N) :
    Ideal.div
        (∑ i, Ideal.div (w i : EReal) (Ideal.div (∑ j, (w j : EReal)) (N : EReal)) * (if hit i then (1 : EReal) else 0))
        (∑ i, Ideal.div (w i : EReal) (Ideal.div (∑ j, (w j : EReal)) (N : EReal)))
      = Ideal.div (∑ i, if hit i then (w i : EReal) else 0) (∑ i, (w i : EReal)) := by
  -- the sum S of the weights is positive, and so is Z = S / N
  have hS : 0 < ∑ j, w j := Finset.sum_pos (fun i _ => hw i) Finset.univ_nonempty
  have hZ : 0 < (∑ j, w j) / N := div_pos hS hN
  -- the mask as a coerced real
  have hm : ∀ i, (if hit i then (1 : EReal) else 0) = (((if hit i then (1 : ℝ) else 0) : ℝ) : EReal) := fun i => by
    split_ifs <;> simp
  have hn : ∀ i, (if hit i then (w i : EReal) else 0) = (((if hit i then w i else 0) : ℝ) : EReal) := fun i => by
    split_ifs <;> simp
  -- everything is a real number
  rw [coe_sum, div_coe_coe _ _ hN.ne']
  simp only [div_coe_coe _ _ hZ.ne', hm, hn, ← EReal.coe_mul]
  rw [coe_sum, coe_sum, coe_sum]
  have hD : (∑ i, w i / ((∑ j, w j) / N)) ≠ 0 := by
    rw [← Finset.sum_div]; exact (div_pos hS hZ).ne'
  rw [div_coe_coe _ _ hD, div_coe_coe _ _ hS.ne']
  congr 1
  -- the identity in the reals
  rw [← Finset.sum_div]
  have e : ∀ i, w i / ((∑ j, w j) / N) * (if hit i then (1 : ℝ) else 0) = (if hit i then w i else 0) / ((∑ j, w j) / N) := fun i => by
    split_ifs <;> simp
  simp only [e]
  rw [← Finset.sum_div]
  field_simp

end Cert.Nce.RefAlgebra

end
-- ==== Proof.RefSide.lean ====
/-
  The reference program's value is the loss of Spec.lean, when every entry of the two float arrays is a real number.

  The reference computes out[b,n] = exp(score b n / 7000), divides every out[b,n] by the mean Z1[b] of row b, and takes
  minus the mean over b of log( (∑ n, out[b,n]/Z1[b] * mask[b,n]) / (∑ n, out[b,n]/Z1[b]) ).  Dividing by 7000 is
  multiplying by 1/7000; the weights are positive reals, so the normalisation by Z1[b] cancels in the quotient
  (RefAlgebra.share_normalized), which leaves num b / den b.
-/
import proofs.«164127_j1657857376324_2_alg».proof.Proof.Spec
import proofs.«164127_j1657857376324_2_alg».proof.Proof.Gen.ReferenceIdeal.Read
import proofs.«164127_j1657857376324_2_alg».proof.Proof.RefAlgebra
import Idealize.ShloMosaic.PureOps.Ideal.Laws
import Idealize.ShloMosaic.Lib.ValueIdx

noncomputable section

namespace Cert.Nce.RefSide

open Idealize.ShloMosaic Idealize.ShloMosaic.ValueIdx Cert.ReferenceIdeal Cert.ReferenceIdeal.Read Cert.Nce

variable (X : (⟨S512x128, .f32⟩ : BufTy).Contents (Elt Ideal)) (Fe : (⟨S100000x128, .f32⟩ : BufTy).Contents (Elt Ideal))
  (L : (⟨S512, .i32⟩ : BufTy).Contents (Elt Ideal)) (LF : (⟨S100000, .i32⟩ : BufTy).Contents (Elt Ideal))

/-! ## The three literals -/

theorem lit7000 : Ideal.ofBits .f32 0x45DAC000#32 = ((7000 : ℝ) : EReal) := by
  simp [Ideal.ofBits, Ideal.ieee, -EReal.coe_mul]; norm_num

theorem lit100000 : Ideal.ofBits .f32 0x47C35000#32 = ((100000 : ℝ) : EReal) := by
  simp [Ideal.ofBits, Ideal.ieee, -EReal.coe_mul]; norm_num

/-! ## The weights -/

/-- The inner product read from the reference is the score. -/
theorem v1_eq (b : Fin 512) (n : Fin 100000) : val_main_v1 (F := Ideal) X Fe (ix2 b n) = score X Fe b n := by
  rw [val_main_v1_apply]
  unfold score
  refine Finset.sum_congr rfl fun k _ => ?_
  rw [val_main_v0_apply]
  have e1 : lidx_main_v1 (ix2 b n) k = ix2 b k := by
    funext a; match a with | ⟨0, _⟩ => rfl | ⟨1, _⟩ => rfl
  have e2 : idx_main_v0 (ridx_main_v1 (ix2 b n) k) = ix2 n k := by
    funext a; match a with | ⟨0, _⟩ => rfl | ⟨1, _⟩ => rfl
  rw [e1, e2]

/-- The exponential of the score over 7000 is the weight. -/
theorem v4_eq (b : Fin 512) (n : Fin 100000) : val_main_v4 (F := Ideal) X Fe (ix2 b n) = wgt X Fe b n := by
  rw [val_main_v4_apply, val_main_v3_apply, val_main_v2_apply, val_main_cst_apply, v1_eq]
  simp only [Ideal.hostUnary_exp_def, Ideal.hostDivf_def, Ideal.ofBits_def]
  rw [lit7000, Ideal.div_coe (by norm_num : (7000 : ℝ) ≠ 0)]
  rfl

/-! ## The weights are positive reals -/

/-- The weight as a real number, from the real parts of the entries. -/
def wr (b : Fin 512) (n : Fin 100000) : ℝ :=
  Real.exp ((∑ k : Fin 128, (X (ix2 b k)).toReal * (Fe (ix2 n k)).toReal) * (1 / 7000))

theorem wr_pos (b : Fin 512) (n : Fin 100000) : 0 < wr X Fe b n := Real.exp_pos _

/-- When the entries are reals, the weight is the coerced real weight. -/
theorem wgt_eq (hX : ∀ i, ∃ r : ℝ, X i = (r : EReal)) (hF : ∀ i, ∃ r : ℝ, Fe i = (r : EReal)) (b : Fin 512) (n : Fin 100000) :
    wgt X Fe b n = (wr X Fe b n : EReal) := by
  unfold wgt wr score
  have e : ∀ k : Fin 128, X (ix2 b k) * Fe (ix2 n k) = (((X (ix2 b k)).toReal * (Fe (ix2 n k)).toReal : ℝ) : EReal) := fun k => by
    obtain ⟨r, hr⟩ := hX (ix2 b k)
    obtain ⟨s, hs⟩ := hF (ix2 n k)
    rw [hr, hs, EReal.toReal_coe, EReal.toReal_coe, EReal.coe_mul]
  simp only [e]
  rw [RefAlgebra.coe_sum, ← EReal.coe_mul, Ideal.exp_coe]

/-! ## The row sums and the normalised weights -/

/-- The reference's first row sum is the total weight of the row. -/
theorem v5_eq (b : Fin 512) : val_main_v5 (F := Ideal) X Fe (ix1 b) = den X Fe b := by
  rw [val_main_v5_apply, val_main_cst_0_apply, Ideal.ofBits_def, Ideal.ofBits_zero_f32, zero_add]
  unfold den
  refine Finset.sum_congr rfl fun n _ => ?_
  have e : idx_main_v5 (ix1 b) n = ix2 b n := by
    funext a; match a with | ⟨0, _⟩ => rfl | ⟨1, _⟩ => rfl
  rw [e, v4_eq]

/-- The row's mean weight, broadcast along the row. -/
theorem v9_eq (b : Fin 512) (n : Fin 100000) :
    val_main_v9 (F := Ideal) X Fe (ix2 b n) = Ideal.div (den X Fe b) ((100000 : ℝ) : EReal) := by
  rw [val_main_v9_apply, val_main_v8_apply, val_main_v6_apply, val_main_v7_apply, val_main_cst_1_apply]
  have e : idx_main_v6 (idx_main_v9 (ix2 b n)) = ix1 b := by
    funext a; match a with | ⟨0, _⟩ => rfl
  rw [e, v5_eq]
  simp only [Ideal.hostDivf_def, Ideal.ofBits_def]
  rw [lit100000]

/-- The normalised weight. -/
theorem v10_eq (b : Fin 512) (n : Fin 100000) :
    val_main_v10 (F := Ideal) X Fe (ix2 b n) = Ideal.div (wgt X Fe b n) (Ideal.div (den X Fe b) ((100000 : ℝ) : EReal)) := by
  rw [val_main_v10_apply, v4_eq, v9_eq]
  rfl

/-- The mask: 1 where the memory row's label is the query's, 0 elsewhere. -/
theorem v16_eq (b : Fin 512) (n : Fin 100000) :
    val_main_v16 (F := Ideal) L LF (ix2 b n) = if L (ix1 b) = LF (ix1 n) then (1 : EReal) else 0 := by
  rw [val_main_v16_apply, val_main_v15_apply, val_main_v13_apply, val_main_v11_apply, val_main_v14_apply, val_main_v12_apply]
  have e1 : idx_main_v11 (idx_main_v13 (ix2 b n)) = ix1 b := by
    funext a; match a with | ⟨0, _⟩ => rfl
  have e2 : idx_main_v12 (idx_main_v14 (ix2 b n)) = ix1 n := by
    funext a; match a with | ⟨0, _⟩ => rfl
  rw [e1, e2]
  show (((IntOp.cmpi .eq (L (ix1 b)) (LF (ix1 n))).toNat : ℝ) : EReal) = _
  unfold IntOp.cmpi
  by_cases h : L (ix1 b) = LF (ix1 n) <;> simp [h]

/-- The masked row sum of the normalised weights. -/
theorem v18_eq (b : Fin 512) :
    val_main_v18 (F := Ideal) X Fe L LF (ix1 b)
      = ∑ n : Fin 100000, Ideal.div (wgt X Fe b n) (Ideal.div (den X Fe b) ((100000 : ℝ) : EReal))
          * (if L (ix1 b) = LF (ix1 n) then (1 : EReal) else 0) := by
  rw [val_main_v18_apply, val_main_cst_2_apply, Ideal.ofBits_def, Ideal.ofBits_zero_f32, zero_add]
  refine Finset.sum_congr rfl fun n _ => ?_
  have e : idx_main_v18 (ix1 b) n = ix2 b n := by
    funext a; match a with | ⟨0, _⟩ => rfl | ⟨1, _⟩ => rfl
  rw [e, val_main_v17_apply, v10_eq, v16_eq]
  rfl

/-- The row sum of the normalised weights. -/
theorem v19_eq (b : Fin 512) :
    val_main_v19 (F := Ideal) X Fe (ix1 b)
      = ∑ n : Fin 100000, Ideal.div (wgt X Fe b n) (Ideal.div (den X Fe b) ((100000 : ℝ) : EReal)) := by
  rw [val_main_v19_apply, val_main_cst_3_apply, Ideal.ofBits_def, Ideal.ofBits_zero_f32, zero_add]
  refine Finset.sum_congr rfl fun n _ => ?_
  have e : idx_main_v19 (ix1 b) n = ix2 b n := by
    funext a; match a with | ⟨0, _⟩ => rfl | ⟨1, _⟩ => rfl
  rw [e, v10_eq]

/-! ## The share per query row, and the loss -/

/-- Per query row the reference's quotient of row sums is num / den: the normalisation by the row's mean cancels. -/
theorem v20_eq (hX : ∀ i, ∃ r : ℝ, X i = (r : EReal)) (hF : ∀ i, ∃ r : ℝ, Fe i = (r : EReal)) (b : Fin 512) :
    val_main_v20 (F := Ideal) X Fe L LF (ix1 b) = Ideal.div (num X Fe L LF b) (den X Fe b) := by
  rw [val_main_v20_apply, v18_eq, v19_eq]
  simp only [Ideal.hostDivf_def]
  unfold num den
  simp only [wgt_eq X Fe hX hF]
  haveI : Nonempty (Fin 100000) := ⟨⟨0, by norm_num⟩⟩
  exact RefAlgebra.share_normalized (wr X Fe b) (wr_pos X Fe b) (fun n => L (ix1 b) = LF (ix1 n)) 100000 (by norm_num)

/-- The query rows, as the indices of the rank-1 shape. -/
def rowEquiv : Fin 512 ≃ S512.Idx where
  toFun b := ix1 b
  invFun j := j 0
  left_inv _ := rfl
  right_inv j := (eq_ix1 j).symm

/-- THE REFERENCE'S VALUE IS THE LOSS. -/
theorem ref_eq_loss (hX : ∀ i, ∃ r : ℝ, X i = (r : EReal)) (hF : ∀ i, ∃ r : ℝ, Fe i = (r : EReal)) :
    val_main_v24 (F := Ideal) X Fe L LF = fun _ => loss X Fe L LF := by
  funext i
  have hsum : ∑ j : S512.Idx, val_main_v21 (F := Ideal) X Fe L LF j
      = ∑ b : Fin 512, Ideal.log (Ideal.div (num X Fe L LF b) (den X Fe b)) := by
    rw [← Equiv.sum_comp rowEquiv]
    refine Finset.sum_congr rfl fun b _ => ?_
    show val_main_v21 (F := Ideal) X Fe L LF (ix1 b) = _
    rw [val_main_v21_apply, v20_eq X Fe L LF hX hF, Ideal.hostUnary_log_def]
  rw [val_main_v24_apply, val_main_v23_apply, val_main_v22_apply, val_main_cst_4_apply, val_main_cst_5_apply, hsum]
  unfold loss
  simp only [Ideal.hostDivf_def, Ideal.hostNegf_def, Ideal.negf_def, Ideal.ofBits_def]

end Cert.Nce.RefSide

end
-- ==== Proof.Pieces.lean ====
/-
  What one run of the kernel body leaves in its two accumulator blocks, as values.

  At the first tile of a half (case A) the body stores a zero block and then adds the tile's row sums to what it
  reads back; at a later tile (case B) it adds them to what the block held.  Each block is written last by one
  store covering it whole, so its contents are that store's payload.
-/
import proofs.«164127_j1657857376324_2_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile, the block of all weights: what it held plus the tile's row sums. -/
theorem outB_all (c : Dev nD) (i : grid0.Coords) (a2 : Memref sig .tc .vmem S512x128 .f32) (h2 : a2.IsWhole)
    (a3 : Memref sig .tc .vmem S1x4096x128 .f32) (h3 : a3.IsWhole) (a4 : Memref sig .tc .vmem S512x1 .i32) (h4 : a4.IsWhole)
    (a5 : Memref sig .tc .vmem S1x1x4096 .i32) (h5 : a5.IsWhole) (a6 : Memref sig .tc .vmem S1x512x1 .f32) (h6 : a6.IsWhole)
    (a7 : Memref sig .tc .vmem S1x512x1 .f32) (h7 : a7.IsWhole) (hc : ¬cond0_0 i)
    (x0 : Vec F S512x128 .f32) (x1 : Vec F S1x4096x128 .f32) (x2 : Vec F S512x1 .i32) (x3 : Vec F S1x1x4096 .i32)
    (xo4 xo5 : Vec F S1x512x1 .f32) :
    out0_B_4 c i a2 h2 a3 h3 a4 h4 a5 h5 a6 h6 a7 h7 hc x0 x1 x2 x3 xo4 xo5 = k0_pay5 x0 x1 xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  rw [View.canon_unit_zero hz3]
  simp only [View.readAt_eq_ld, h2.read_unread, h3.read_unread, h4.read_unread, h5.read_unread, h6.read_unread, h7.read_unread,
    View.ld_unit_zero (S := S512x128) hz2, View.ld_unit_zero (S := S1x4096x128) hz3, View.ld_unit_zero (S := S512x1) hz2,
    View.ld_unit_zero (S := S1x1x4096) hz3, View.ld_unit_zero (S := S1x512x1) hz3]

/-- A later tile, the block of matching weights: what it held plus the tile's masked row sums. -/
theorem outB_hit (c : Dev nD) (i : grid0.Coords) (a2 : Memref sig .tc .vmem S512x128 .f32) (h2 : a2.IsWhole)
    (a3 : Memref sig .tc .vmem S1x4096x128 .f32) (h3 : a3.IsWhole) (a4 : Memref sig .tc .vmem S512x1 .i32) (h4 : a4.IsWhole)
    (a5 : Memref sig .tc .vmem S1x1x4096 .i32) (h5 : a5.IsWhole) (a6 : Memref sig .tc .vmem S1x512x1 .f32) (h6 : a6.IsWhole)
    (a7 : Memref sig .tc .vmem S1x512x1 .f32) (h7 : a7.IsWhole) (hc : ¬cond0_0 i)
    (x0 : Vec F S512x128 .f32) (x1 : Vec F S1x4096x128 .f32) (x2 : Vec F S512x1 .i32) (x3 : Vec F S1x1x4096 .i32)
    (xo4 xo5 : Vec F S1x512x1 .f32) :
    out0_B_5 c i a2 h2 a3 h3 a4 h4 a5 h5 a6 h6 a7 h7 hc x0 x1 x2 x3 xo4 xo5 = k0_pay1 (k0_pay4 x0 x1) (k0_pay6 xo5) (k0_pay7 x3 x2) (k0_pay8 (F := F)) := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S512x128) hz2, View.ld_unit_zero (S := S1x4096x128) hz3, View.ld_unit_zero (S := S512x1) hz2,
    View.ld_unit_zero (S := S1x1x4096) hz3, View.ld_unit_zero (S := S1x512x1) hz3]

/-- The first tile, the block of all weights: zero plus the tile's row sums. -/
theorem outA_all (c : Dev nD) (i : grid0.Coords) (a2 : Memref sig .tc .vmem S512x128 .f32) (h2 : a2.IsWhole)
    (a3 : Memref sig .tc .vmem S1x4096x128 .f32) (h3 : a3.IsWhole) (a4 : Memref sig .tc .vmem S512x1 .i32) (h4 : a4.IsWhole)
    (a5 : Memref sig .tc .vmem S1x1x4096 .i32) (h5 : a5.IsWhole) (a6 : Memref sig .tc .vmem S1x512x1 .f32) (h6 : a6.IsWhole)
    (a7 : Memref sig .tc .vmem S1x512x1 .f32) (h7 : a7.IsWhole) (hc : cond0_0 i)
    (x0 : Vec F S512x128 .f32) (x1 : Vec F S1x4096x128 .f32) (x2 : Vec F S512x1 .i32) (x3 : Vec F S1x1x4096 .i32) :
    out0_A_4 c i a2 h2 a3 h3 a4 h4 a5 h5 a6 h6 a7 h7 hc x0 x1 x2 x3 = k0_pay5 x0 x1 (k0_pay2 (F := F)) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x512x1) hz3, View.readCov_unit_zero (S := S1x512x1) _ hz3]
  simp only [View.readAt_eq_ld, h2.read_unread, h3.read_unread, h4.read_unread, h5.read_unread, h6.read_unread, h7.read_unread,
    View.ld_unit_zero (S := S512x128) hz2, View.ld_unit_zero (S := S1x4096x128) hz3, View.ld_unit_zero (S := S512x1) hz2,
    View.ld_unit_zero (S := S1x1x4096) hz3, View.ld_unit_zero (S := S1x512x1) hz3]

/-- The first tile, the block of matching weights: zero plus the tile's masked row sums. -/
theorem outA_hit (c : Dev nD) (i : grid0.Coords) (a2 : Memref sig .tc .vmem S512x128 .f32) (h2 : a2.IsWhole)
    (a3 : Memref sig .tc .vmem S1x4096x128 .f32) (h3 : a3.IsWhole) (a4 : Memref sig .tc .vmem S512x1 .i32) (h4 : a4.IsWhole)
    (a5 : Memref sig .tc .vmem S1x1x4096 .i32) (h5 : a5.IsWhole) (a6 : Memref sig .tc .vmem S1x512x1 .f32) (h6 : a6.IsWhole)
    (a7 : Memref sig .tc .vmem S1x512x1 .f32) (h7 : a7.IsWhole) (hc : cond0_0 i)
    (x0 : Vec F S512x128 .f32) (x1 : Vec F S1x4096x128 .f32) (x2 : Vec F S512x1 .i32) (x3 : Vec F S1x1x4096 .i32) :
    out0_A_5 c i a2 h2 a3 h3 a4 h4 a5 h5 a6 h6 a7 h7 hc x0 x1 x2 x3 = k0_pay1 (k0_pay4 x0 x1) (k0_pay6 (k0_pay3 (F := F))) (k0_pay7 x3 x2) (k0_pay8 (F := F)) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x512x1) hz3, View.readCov_unit_zero (S := S1x512x1) _ hz3]
  simp only [View.readAt_eq_ld, h2.read_unread, h3.read_unread, h4.read_unread, h5.read_unread, h6.read_unread, h7.read_unread,
    View.ld_unit_zero (S := S512x128) hz2, View.ld_unit_zero (S := S1x4096x128) hz3, View.ld_unit_zero (S := S512x1) hz2,
    View.ld_unit_zero (S := S1x1x4096) hz3, View.ld_unit_zero (S := S1x512x1) hz3]

end Cert.KernelIdeal.Pieces

end
-- ==== Proof.Payload.lean ====
/-
  The arithmetic of one tile of the kernel body, read index by index over the extended reals.

  A tile holds 4096 rows of the (padded) memory bank.  For query row b and tile row l the body forms the inner
  product of x[b,:] with the tile's row l, scales it by the named constant and exponentiates it; the block of all
  weights gains the sum over l of these, the block of matching weights the sum over the l whose label is the
  query's.
-/
import proofs.«164127_j1657857376324_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

open Idealize.ShloMosaic Idealize.ShloMosaic.TcCoe Idealize.ShloMosaic.ValueIdx

namespace Cert.KernelIdeal.Payload

open Cert.KernelIdeal Cert.KernelIdeal.Gen

/-- The scale the body multiplies the inner products by. -/
abbrev scale : EReal := Named.named (F := Ideal) κ "inv_7000" (φ := .f32) 0x3915CBEC#32

/-- The weight of tile row `l` for query row `b`: the exponential of the scaled inner product. -/
def tileWgt (x0 : FVec Ideal S512x128 .f32) (x1 : FVec Ideal S1x4096x128 .f32) (b : Fin 512) (l : Fin 4096) : EReal :=
  Ideal.exp ((∑ k : Fin 128, x0 (ix2 b k) * x1 (ix3 (0 : Fin 1) l k)) * scale)

theorem lhs0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide),
    dif_pos (show (0 : Fin S512x128.rank) ∈ dot_S512x128_S128x4096_S512x4096_1_0_0_1_n_n.lhsNonContracting by decide)]
  rfl
theorem lhs1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
theorem rhs0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
theorem rhs1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide),
    dif_pos (show (1 : Fin S128x4096.rank) ∈ dot_S512x128_S128x4096_S512x4096_1_0_0_1_n_n.rhsNonContracting by decide)]
  rfl

/-- The matrix product of the query block with the transposed tile, at (b, l): the inner product of their rows. -/
theorem matmul_at (L : FVec Ideal S512x128 .bf16) (R : FVec Ideal S128x4096 .bf16) (b : Fin 512) (l : Fin 4096) :
    matmul dot_S512x128_S128x4096_S512x4096_1_0_0_1_n_n none L R (constant S512x4096 .f32 0x00000000#32) (ix2 b l)
      = ∑ k : Fin 128, L (ix2 b k) * R (ix2 k l) := by
  refine (Ideal.matmul_constant_zero_apply dot_S512x128_S128x4096_S512x4096_1_0_0_1_n_n none L R (ix2 b l)).trans ?_
  rw [← Equiv.sum_comp (contrEquiv1 dot_S512x128_S128x4096_S512x4096_1_0_0_1_n_n 128 rfl rfl).symm]
  refine Finset.sum_congr rfl fun k _ => ?_
  have hk := contrEquiv1_symm_val dot_S512x128_S128x4096_S512x4096_1_0_0_1_n_n 128 rfl rfl k
  have el : dot_S512x128_S128x4096_S512x4096_1_0_0_1_n_n.lhsIdx (ix2 b l) ((contrEquiv1 dot_S512x128_S128x4096_S512x4096_1_0_0_1_n_n 128 rfl rfl).symm k) = ix2 b k :=
    funext fun a => Fin.ext (by
      match a with
      | ⟨0, _⟩ => exact lhs0 _ _
      | ⟨1, _⟩ => exact (lhs1 _ _).trans hk)
  have er : dot_S512x128_S128x4096_S512x4096_1_0_0_1_n_n.rhsIdx (ix2 b l) ((contrEquiv1 dot_S512x128_S128x4096_S512x4096_1_0_0_1_n_n 128 rfl rfl).symm k) = ix2 k l :=
    funext fun a => Fin.ext (by
      match a with
      | ⟨0, _⟩ => exact (rhs0 _ _).trans hk
      | ⟨1, _⟩ => exact rhs1 _ _)
  rw [el, er]

/-- The body's exponentiated tile at (b, l) is the weight of tile row l for query row b. -/
theorem pay4_at (x0 : FVec Ideal S512x128 .f32) (x1 : FVec Ideal S1x4096x128 .f32) (b : Fin 512) (l : Fin 4096) :
    k0_pay4 (F := Ideal) x0 x1 (ix2 b l) = tileWgt x0 x1 b l := by
  unfold k0_pay4 tileWgt
  show Ideal.exp (matmul (F := Ideal) dot_S512x128_S128x4096_S512x4096_1_0_0_1_n_n none _ _ (constant S512x4096 .f32 0x00000000#32) (ix2 b l) * scale) = _
  rw [matmul_at]
  refine congrArg (fun z => Ideal.exp (z * scale)) (Finset.sum_congr rfl fun k _ => ?_)
  refine congrArg (x0 (ix2 b k) * ·) ?_
  refine (transpose_ix2_apply _ transposes_S4096x128_p1_0_S128x4096 k l).trans ?_
  exact shapeCast_1ab_ab_apply x1 shapeCasts_S1x4096x128_S4096x128 l k

/-! ## Small layout facts at these shapes -/

/-- A vector of length a viewed as a column [a, 1] reads, at (i, 0), its entry i. -/
theorem column_at {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column [a, 1] repeated along b columns reads, at (i, l), the column's entry i. -/
theorem spread_at {α : Type} {a b : ℕ} (hb : b ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) := by
  refine broadcastTo_apply v h (ix2 i l) (ix2 i (0 : Fin 1)) fun ax => ?_
  match ax with
  | ⟨0, _⟩ =>
    show i.val = if a = 1 then 0 else i.val
    split
    · have := i.isLt; omega
    · rfl
  | ⟨1, _⟩ => rfl

/-- The sum along a row of a [512, 4096] array, read at row b. -/
theorem rowSum_at (src : FVec Ideal S512x4096 .f32) (h : S512x4096.Reduces [1] S512) (hφ : FKind.Formats .f32)
    (hacc : (0x00000000#32 : BitVec 32) = FKind.add.neutral .f32 hφ) (b : Fin 512) :
    multiReduction .add [1] S512 src 0x00000000#32 h hφ hacc (ix1 b) = ∑ l : Fin 4096, src (ix2 b l) := by
  refine (Ideal.multiReduction_add_single src 0x00000000#32 h hφ hacc (ix1 b)).trans ?_
  show ∑ l : Fin 4096, src (h.lift (ix1 b) l) = _
  refine Finset.sum_congr rfl fun l _ => congrArg src (funext fun a => Fin.ext ?_)
  match a with
  | ⟨0, _⟩ => rfl
  | ⟨1, _⟩ => rfl

/-! ## The two accumulation steps -/

/-- The block of all weights after a tile: at row b, what it held plus the sum of the tile's weights. -/
theorem pay5_at (x0 : FVec Ideal S512x128 .f32) (x1 : FVec Ideal S1x4096x128 .f32) (acc : FVec Ideal S1x512x1 .f32) (b : Fin 512) :
    k0_pay5 (F := Ideal) x0 x1 acc (ix3 (0 : Fin 1) b (0 : Fin 1))
      = acc (ix3 (0 : Fin 1) b (0 : Fin 1)) + ∑ l : Fin 4096, tileWgt x0 x1 b l := by
  unfold k0_pay5
  refine (shapeCast_ab_1ab_apply _ shapeCasts_S512x1_S1x512x1 (0 : Fin 1) b (0 : Fin 1)).trans ?_
  refine congrArg₂ (· + ·) (shapeCast_1ab_ab_apply acc shapeCasts_S1x512x1_S512x1 b (0 : Fin 1)) ?_
  refine (column_at _ shapeCasts_S512_S512x1 b (0 : Fin 1)).trans ?_
  refine (rowSum_at _ reduces_S512x4096_S512 (.inl rfl) rfl b).trans ?_
  exact Finset.sum_congr rfl fun l _ => pay4_at x0 x1 b l

/-- The block of matching weights after a tile: at row b, what it held plus the sum of the weights of the tile rows
    whose label is the query's. -/
theorem pay1_at (x0 : FVec Ideal S512x128 .f32) (x1 : FVec Ideal S1x4096x128 .f32) (x2 : IVec S512x1 32) (x3 : IVec S1x1x4096 32)
    (acc : FVec Ideal S1x512x1 .f32) (b : Fin 512) :
    k0_pay1 (F := Ideal) (k0_pay4 x0 x1) (k0_pay6 acc) (k0_pay7 (F := Ideal) x3 x2) (k0_pay8 (F := Ideal)) (ix3 (0 : Fin 1) b (0 : Fin 1))
      = acc (ix3 (0 : Fin 1) b (0 : Fin 1))
        + ∑ l : Fin 4096, if x2 (ix2 b (0 : Fin 1)) = x3 (ix3 (0 : Fin 1) (0 : Fin 1) l) then tileWgt x0 x1 b l else 0 := by
  unfold k0_pay1
  refine (shapeCast_ab_1ab_apply _ shapeCasts_S512x1_S1x512x1 (0 : Fin 1) b (0 : Fin 1)).trans ?_
  refine congrArg₂ (· + ·) ?_ ?_
  · unfold k0_pay6
    exact shapeCast_1ab_ab_apply acc shapeCasts_S1x512x1_S512x1 b (0 : Fin 1)
  refine (column_at _ shapeCasts_S512_S512x1 b (0 : Fin 1)).trans ?_
  refine (rowSum_at _ reduces_S512x4096_S512 (.inl rfl) rfl b).trans ?_
  refine Finset.sum_congr rfl fun l _ => ?_
  show Scalar.select (k0_pay7 (F := Ideal) x3 x2 (ix2 b l)) (k0_pay4 (F := Ideal) x0 x1 (ix2 b l)) (k0_pay8 (F := Ideal) (ix2 b l)) = _
  have e7 : k0_pay7 (F := Ideal) x3 x2 (ix2 b l) = IntOp.cmpi .eq (x2 (ix2 b (0 : Fin 1))) (x3 (ix3 (0 : Fin 1) (0 : Fin 1) l)) := by
    unfold k0_pay7
    refine congrArg₂ (IntOp.cmpi .eq) ?_ ?_
    · refine (spread_at (by decide) _ broadcasts_S512x1_S512x4096 b l).trans ?_
      rw [shapeCast_self]
    · refine (broadcastTo_1b_ab_apply _ broadcasts_S1x4096_S512x4096 b l).trans ?_
      exact shapeCast_1ab_ab_apply x3 shapeCasts_S1x1x4096_S1x4096 (0 : Fin 1) l
  have e8 : k0_pay8 (F := Ideal) (ix2 b l) = 0 := Ideal.ofBits_zero_f32
  rw [e7, e8, pay4_at]
  unfold Scalar.select
  exact if_congr IntOp.cmpi_eq rfl rfl

/-- The block the first tile of a half starts from is zero. -/
theorem pay2_at (u : Fin 1) (b : Fin 512) (v : Fin 1) : k0_pay2 (F := Ideal) (ix3 u b v) = 0 := by
  unfold k0_pay2
  exact (shapeCast_ab_1ab_apply _ shapeCasts_S512x1_S1x512x1 u b v).trans Ideal.ofBits_zero_f32

theorem pay3_at (u : Fin 1) (b : Fin 512) (v : Fin 1) : k0_pay3 (F := Ideal) (ix3 u b v) = 0 := by
  unfold k0_pay3
  exact (shapeCast_ab_1ab_apply _ shapeCasts_S512x1_S1x512x1 u b v).trans Ideal.ofBits_zero_f32

end Cert.KernelIdeal.Payload

end
-- ==== Proof.Accum.lean ====
/-
  The two accumulator blocks across the thirteen tiles of a half.

  Grid point 13 q + s is tile s of half q.  At s = 0 the blocks are reset and the tile's sums added; at every
  later tile the tile's sums are added to what the tile before left.  So after tile s the block of all weights
  holds, at row b, the sum over the tiles 0 .. s of the tile's total weight for row b, and the block of matching
  weights the same with the matching weights only.
-/
import proofs.«164127_j1657857376324_2_alg».proof.Proof.Pieces
import proofs.«164127_j1657857376324_2_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Payload

variable (m : (ℓ : Loc nD τ sig) → Buf (Elt Ideal) ℓ)

/-- Tile `n`'s total weight for query row `b` (zero past the grid). -/
def tileAll (c : Dev nD) (n : ℕ) (b : Fin 512) : EReal :=
  if h : n < cfg0.N then ∑ l : Fin 4096, tileWgt (iblk m c 0 ⟨n, h⟩) (iblk m c 1 ⟨n, h⟩) b l else 0

/-- Tile `n`'s matching weight for query row `b` (zero past the grid). -/
def tileHit (c : Dev nD) (n : ℕ) (b : Fin 512) : EReal :=
  if h : n < cfg0.N then
    ∑ l : Fin 4096, if iblk m c 2 ⟨n, h⟩ (ix2 b (0 : Fin 1)) = iblk m c 3 ⟨n, h⟩ (ix3 (0 : Fin 1) (0 : Fin 1) l)
      then tileWgt (iblk m c 0 ⟨n, h⟩) (iblk m c 1 ⟨n, h⟩) b l else 0
  else 0

theorem tileAll_of_lt (c : Dev nD) (t : Fin cfg0.N) (b : Fin 512) :
    tileAll m c t.val b = ∑ l : Fin 4096, tileWgt (iblk m c 0 t) (iblk m c 1 t) b l := by
  unfold tileAll; rw [dif_pos t.isLt]

theorem tileHit_of_lt (c : Dev nD) (t : Fin cfg0.N) (b : Fin 512) :
    tileHit m c t.val b = ∑ l : Fin 4096, if iblk m c 2 t (ix2 b (0 : Fin 1)) = iblk m c 3 t (ix3 (0 : Fin 1) (0 : Fin 1) l)
      then tileWgt (iblk m c 0 t) (iblk m c 1 t) b l else 0 := by
  unfold tileHit; rw [dif_pos t.isLt]

/-- The first tile of a half: both blocks hold the tile's sums. -/
theorem first_tile (c : Dev nD) (t : Fin cfg0.N) (h0 : t.val % 13 = 0) (b : Fin 512) :
    (outsAt0 m c t.val t.isLt).1 (ix3 (0 : Fin 1) b (0 : Fin 1)) = 0 + tileAll m c t.val b
    ∧ (outsAt0 m c t.val t.isLt).2 (ix3 (0 : Fin 1) b (0 : Fin 1)) = 0 + tileHit m c t.val b := by
  rw [outsAt0_A m c t h0]
  dsimp only
  constructor
  · refine (congrFun (Pieces.outA_all (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)) _).trans ?_
    refine (pay5_at (iblk m c 0 t) (iblk m c 1 t) (k0_pay2 (F := Ideal)) b).trans ?_
    rw [pay2_at, tileAll_of_lt]
  · refine (congrFun (Pieces.outA_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)) _).trans ?_
    refine (pay1_at (iblk m c 0 t) (iblk m c 1 t) (iblk m c 2 t) (iblk m c 3 t) (k0_pay3 (F := Ideal)) b).trans ?_
    rw [pay3_at, tileHit_of_lt]

/-- A later tile: both blocks hold what the tile before left plus the tile's sums. -/
theorem later_tile (c : Dev nD) (t : Fin cfg0.N) (h0 : ¬t.val % 13 = 0) (b : Fin 512) :
    (outsAt0 m c t.val t.isLt).1 (ix3 (0 : Fin 1) b (0 : Fin 1))
      = (outsAt0 m c (t.val - 1) (Nat.lt_of_le_of_lt (Nat.sub_le _ _) t.isLt)).1 (ix3 (0 : Fin 1) b (0 : Fin 1)) + tileAll m c t.val b
    ∧ (outsAt0 m c t.val t.isLt).2 (ix3 (0 : Fin 1) b (0 : Fin 1))
      = (outsAt0 m c (t.val - 1) (Nat.lt_of_le_of_lt (Nat.sub_le _ _) t.isLt)).2 (ix3 (0 : Fin 1) b (0 : Fin 1)) + tileHit m c t.val b := by
  rw [outsAt0_B m c t h0]
  dsimp only
  constructor
  · refine (congrFun (Pieces.outB_all (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1 (outsAt0 m c (t.val - 1) (Nat.lt_of_le_of_lt (Nat.sub_le _ _) t.isLt)).2) _).trans ?_
    refine (pay5_at (iblk m c 0 t) (iblk m c 1 t) (outsAt0 m c (t.val - 1) (Nat.lt_of_le_of_lt (Nat.sub_le _ _) t.isLt)).1 b).trans ?_
    rw [tileAll_of_lt]
  · refine (congrFun (Pieces.outB_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1 (outsAt0 m c (t.val - 1) (Nat.lt_of_le_of_lt (Nat.sub_le _ _) t.isLt)).2) _).trans ?_
    refine (pay1_at (iblk m c 0 t) (iblk m c 1 t) (iblk m c 2 t) (iblk m c 3 t) (outsAt0 m c (t.val - 1) (Nat.lt_of_le_of_lt (Nat.sub_le _ _) t.isLt)).2 b).trans ?_
    rw [tileHit_of_lt]

/-- After the last tile of half `q` the block of all weights holds, at row `b`, the sum of the thirteen tiles' totals. -/
theorem all_after (c : Dev nD) (q : ℕ) (hq : 13 * q + 12 < cfg0.N) (b : Fin 512) :
    (outsAt0 m c (13 * q + 12) hq).1 (ix3 (0 : Fin 1) b (0 : Fin 1)) = 0 + ∑ s ∈ Finset.range 13, tileAll m c (13 * q + s) b := by
  have key := Pipeline.eq_accAt (N := cfg0.N)
    (fun n h => fun b : Fin 512 => (outsAt0 m c n h).1 (ix3 (0 : Fin 1) b (0 : Fin 1))) 13
    (fun n _ => fun b : Fin 512 => 0 + tileAll m c n b) (fun n _ acc => fun b : Fin 512 => acc b + tileAll m c n b)
    (fun n h hn => funext fun b => (first_tile m c ⟨n, h⟩ hn b).1)
    (fun n h hn => funext fun b => (later_tile m c ⟨n + 1, h⟩ hn b).1) q 12 (by decide) hq
  refine (congrFun key b).trans ?_
  exact Pipeline.accAt_add_apply _ _ (fun _ => 0) (fun n b => tileAll m c n b) (13 * q) 12 (fun _ _ => rfl)
    (fun _ _ _ _ _ _ => rfl) 12 le_rfl hq b

/-- And the block of matching weights the sum of the thirteen tiles' matching weights. -/
theorem hit_after (c : Dev nD) (q : ℕ) (hq : 13 * q + 12 < cfg0.N) (b : Fin 512) :
    (outsAt0 m c (13 * q + 12) hq).2 (ix3 (0 : Fin 1) b (0 : Fin 1)) = 0 + ∑ s ∈ Finset.range 13, tileHit m c (13 * q + s) b := by
  have key := Pipeline.eq_accAt (N := cfg0.N)
    (fun n h => fun b : Fin 512 => (outsAt0 m c n h).2 (ix3 (0 : Fin 1) b (0 : Fin 1))) 13
    (fun n _ => fun b : Fin 512 => 0 + tileHit m c n b) (fun n _ acc => fun b : Fin 512 => acc b + tileHit m c n b)
    (fun n h hn => funext fun b => (first_tile m c ⟨n, h⟩ hn b).2)
    (fun n h hn => funext fun b => (later_tile m c ⟨n + 1, h⟩ hn b).2) q 12 (by decide) hq
  refine (congrFun key b).trans ?_
  exact Pipeline.accAt_add_apply _ _ (fun _ => 0) (fun n b => tileHit m c n b) (13 * q) 12 (fun _ _ => rfl)
    (fun _ _ _ _ _ _ => rfl) 12 le_rfl hq b

end Cert.KernelIdeal.Accum

end
-- ==== Proof.Blocks.lean ====
/-
  The blocks the kernel's windows read at a grid point, as entries of the arrays the region finds.

  Grid point t is tile t % 13 of half t / 13.  The query block and the query labels are the whole arrays at
  every point; the bank block is rows 4096 (t % 13) .. 4096 (t % 13) + 4095 of half t / 13 of the padded bank,
  and the bank's label block the same positions of the padded label row.
-/
import proofs.«164127_j1657857376324_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F] [Named F]
variable (m : (ℓ : Loc nD τ sig) → Buf (Elt F) ℓ)

/-- The printed index maps at every grid point: which block of its array each window reads or writes. -/
theorem idx_facts : ∀ t : Fin cfg0.N,
    win0_0.index t (0 : Fin 2) = 0 ∧ win0_0.index t (1 : Fin 2) = 0
    ∧ win0_1.index t (0 : Fin 3) = t.val / 13 ∧ win0_1.index t (1 : Fin 3) = t.val % 13 ∧ win0_1.index t (2 : Fin 3) = 0
    ∧ win0_2.index t (0 : Fin 2) = 0 ∧ win0_2.index t (1 : Fin 2) = 0
    ∧ win0_3.index t (0 : Fin 3) = t.val / 13 ∧ win0_3.index t (1 : Fin 3) = 0 ∧ win0_3.index t (2 : Fin 3) = t.val % 13
    ∧ win0_4.index t (0 : Fin 3) = t.val / 13 ∧ win0_4.index t (1 : Fin 3) = 0 ∧ win0_4.index t (2 : Fin 3) = 0
    ∧ win0_5.index t (0 : Fin 3) = t.val / 13 ∧ win0_5.index t (1 : Fin 3) = 0 ∧ win0_5.index t (2 : Fin 3) = 0 :=
  (by decide +kernel : ∀ t : Fin grid0.N, _)

/-- The query block is the query array. -/
theorem query_blk (c : Dev nD) (t : Fin cfg0.N) (b : Fin 512) (k : Fin 128) :
    iblk m c 0 t (ix2 b k) = V m c main_arg0 (ix2 b k) := by
  obtain ⟨e0, e1, -⟩ := idx_facts t
  show V m c main_arg0 (((cfg0.win 0).blk t).view.emb (ix2 b k)) = _
  refine congrArg (V m c main_arg0) (funext fun a => Fin.ext ?_)
  match a with
  | ⟨0, _⟩ => show win0_0.index t (0 : Fin 2) * 512 + 1 * b.val = b.val; rw [e0]; omega
  | ⟨1, _⟩ => show win0_0.index t (1 : Fin 2) * 128 + 1 * k.val = k.val; rw [e1]; omega

/-- The bank block at tile row l is row 4096 (t % 13) + l of half t / 13 of the padded bank. -/
theorem bank_blk (c : Dev nD) (t : Fin cfg0.N) (l : Fin 4096) (k : Fin 128) (h : Fin 2) (j : Fin 53248)
    (hh : h.val = t.val / 13) (hj : j.val = 4096 * (t.val % 13) + l.val) :
    iblk m c 1 t (ix3 (0 : Fin 1) l k) = V m c main_v6 (ix3 h j k) := by
  obtain ⟨-, -, e0, e1, e2, -⟩ := idx_facts t
  show V m c main_v6 (((cfg0.win 1).blk t).view.emb (ix3 (0 : Fin 1) l k)) = _
  refine congrArg (V m c main_v6) (funext fun a => Fin.ext ?_)
  match a with
  | ⟨0, _⟩ => show win0_1.index t (0 : Fin 3) * 1 + 1 * 0 = h.val; rw [e0, hh]; omega
  | ⟨1, _⟩ => show win0_1.index t (1 : Fin 3) * 4096 + 1 * l.val = j.val; rw [e1, hj]; omega
  | ⟨2, _⟩ => show win0_1.index t (2 : Fin 3) * 128 + 1 * k.val = k.val; rw [e2]; omega

/-- The query-label block is the query-label column. -/
theorem queryLabel_blk (c : Dev nD) (t : Fin cfg0.N) (b : Fin 512) :
    iblk m c 2 t (ix2 b (0 : Fin 1)) = V m c main_v15 (ix2 b (0 : Fin 1)) := by
  obtain ⟨-, -, -, -, -, e0, e1, -⟩ := idx_facts t
  show V m c main_v15 (((cfg0.win 2).blk t).view.emb (ix2 b (0 : Fin 1))) = _
  refine congrArg (V m c main_v15) (funext fun a => Fin.ext ?_)
  match a with
  | ⟨0, _⟩ => show win0_2.index t (0 : Fin 2) * 512 + 1 * b.val = b.val; rw [e0]; omega
  | ⟨1, _⟩ => show win0_2.index t (1 : Fin 2) * 1 + 1 * 0 = 0; rw [e1]

/-- The bank-label block at tile row l is position 4096 (t % 13) + l of half t / 13 of the padded label row. -/
theorem bankLabel_blk (c : Dev nD) (t : Fin cfg0.N) (l : Fin 4096) (h : Fin 2) (j : Fin 53248)
    (hh : h.val = t.val / 13) (hj : j.val = 4096 * (t.val % 13) + l.val) :
    iblk m c 3 t (ix3 (0 : Fin 1) (0 : Fin 1) l) = V m c main_v14 (ix3 h (0 : Fin 1) j) := by
  obtain ⟨-, -, -, -, -, -, -, e0, e1, e2, -⟩ := idx_facts t
  show V m c main_v14 (((cfg0.win 3).blk t).view.emb (ix3 (0 : Fin 1) (0 : Fin 1) l)) = _
  refine congrArg (V m c main_v14) (funext fun a => Fin.ext ?_)
  match a with
  | ⟨0, _⟩ => show win0_3.index t (0 : Fin 3) * 1 + 1 * 0 = h.val; rw [e0, hh]; omega
  | ⟨1, _⟩ => show win0_3.index t (1 : Fin 3) * 1 + 1 * 0 = 0; rw [e1]
  | ⟨2, _⟩ => show win0_3.index t (2 : Fin 3) * 4096 + 1 * l.val = j.val; rw [e2, hj]; omega

end Cert.KernelIdeal.Blocks

end
-- ==== Proof.Tail.lean ====
/-
  The host's last lines: from the two accumulated arrays (per half and query row, the total weight and the
  matching weight) to the loss.  The halves are added, the padding's weight 6496 is taken off the total, the
  matching share's logarithm is summed over the query rows, negated and divided by 512.
-/
import proofs.«164127_j1657857376324_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.KernelIdeal.Tail

open Cert.KernelIdeal Cert.KernelIdeal.Gen

variable {F : FTy → Type} [FloatOps F]

/-- One half of an accumulated array, as a column. -/
def half0 (W : FVec F S2x512x1 .f32) : FVec F S512x1 .f32 :=
  shapeCast S512x1 (extractStridedSlice S1x512x1 ![0, 0, 0] W slices_S2x512x1_S1x512x1_0_0_0) shapeCasts_S1x512x1_S512x1
def half1 (W : FVec F S2x512x1 .f32) : FVec F S512x1 .f32 :=
  shapeCast S512x1 (extractStridedSlice S1x512x1 ![1, 0, 0] W slices_S2x512x1_S1x512x1_1_0_0) shapeCasts_S1x512x1_S512x1

/-- The loss from the array of total weights `W4` and the array of matching weights `W5`. -/
def tail (W4 W5 : FVec F S2x512x1 .f32) : FVec F S_ .f32 :=
  Host.divf (Host.negf (Host.reduceAdd (Host.log (Host.divf (addf (half0 W5) (half1 W5))
      (subf (addf (half0 W4) (half1 W4)) (broadcastInDim S512x1 ![] bcast_S_S512x1 (constant S_ .f32 0x45CB0000#32)))))
    (constant S_ .f32 0x00000000#32) reducesTo_S512x1_S_d0_1 h_S_)) (constant S_ .f32 0x44000000#32)

end Cert.KernelIdeal.Tail

end
-- ==== Proof.Final.lean ====
/-
  The kernel's run, read: the two accumulated arrays after the region, and the loss the host's last lines make
  of them.

  Half h of each output array is written back once, after tile 12 of that half (grid point 13 h + 12), with the
  accumulated block; the two halves' blocks tile the array.  So after the region the array of total weights
  holds, at (h, b), the sum over the thirteen tiles of half h of the tile's total weight for query row b, and
  the array of matching weights the same with the matching weights.
-/
import proofs.«164127_j1657857376324_2_alg».proof.Proof.Accum
import proofs.«164127_j1657857376324_2_alg».proof.Proof.Blocks
import proofs.«164127_j1657857376324_2_alg».proof.Proof.Tail
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum Cert.KernelIdeal.Blocks Cert.KernelIdeal.Tail

variable (m : (ℓ : Loc nD τ sig) → Buf (Elt Ideal) ℓ) (ρ : Dev nD → PrngReg)

/-- Half `h`'s total weight for query row `b`: the thirteen tiles' totals (zero outside the array). -/
def allAt (c : Dev nD) (h b : ℕ) : EReal :=
  if hb : b < 512 then 0 + ∑ s ∈ Finset.range 13, tileAll m c (13 * h + s) ⟨b, hb⟩ else 0

/-- Half `h`'s matching weight for query row `b`. -/
def hitAt (c : Dev nD) (h b : ℕ) : EReal :=
  if hb : b < 512 then 0 + ∑ s ∈ Finset.range 13, tileHit m c (13 * h + s) ⟨b, hb⟩ else 0

/-- The array of total weights after the region, and the array of matching weights. -/
def G4 (c : Dev nD) : S2x512x1.Idx → EReal := fun i => allAt m c (i 0).val (i 1).val
def G5 (c : Dev nD) : S2x512x1.Idx → EReal := fun i => hitAt m c (i 0).val (i 1).val

/-- After the last tile of its half, at any such grid point. -/
theorem all_last (c : Dev nD) (t : ℕ) (ht : t < cfg0.N) (h12 : t % 13 = 12) (b : Fin 512) :
    (outsAt0 m c t ht).1 (ix3 (0 : Fin 1) b (0 : Fin 1)) = 0 + ∑ s ∈ Finset.range 13, tileAll m c (13 * (t / 13) + s) b := by
  have e : 13 * (t / 13) + 12 = t := by omega
  have same : ∀ (u : ℕ) (hu : u < cfg0.N), u = t → outsAt0 m c u hu = outsAt0 m c t ht := fun u hu e => by subst e; rfl
  have hq : 13 * (t / 13) + 12 < cfg0.N := by rw [e]; exact ht
  rw [← same (13 * (t / 13) + 12) hq e]
  exact all_after m c (t / 13) hq b

theorem hit_last (c : Dev nD) (t : ℕ) (ht : t < cfg0.N) (h12 : t % 13 = 12) (b : Fin 512) :
    (outsAt0 m c t ht).2 (ix3 (0 : Fin 1) b (0 : Fin 1)) = 0 + ∑ s ∈ Finset.range 13, tileHit m c (13 * (t / 13) + s) b := by
  have e : 13 * (t / 13) + 12 = t := by omega
  have same : ∀ (u : ℕ) (hu : u < cfg0.N), u = t → outsAt0 m c u hu = outsAt0 m c t ht := fun u hu e => by subst e; rfl
  have hq : 13 * (t / 13) + 12 < cfg0.N := by rw [e]; exact ht
  rw [← same (13 * (t / 13) + 12) hq e]
  exact hit_after m c (t / 13) hq b

/-- What a write-back of the array of total weights writes is its block of `G4`. -/
theorem flushed4 (c : Dev nD) (t : Fin cfg0.N) (hf : (cfg0.win 4).flush t = true) :
    (dats m 0 c).flushed 4 t = ((cfg0.win 4).blk t).view.read (Elt Ideal) (G4 m c) := by
  have h12 : t.val % 13 = 12 := (flush0_4 t).mp hf
  obtain ⟨-, -, -, -, -, -, -, -, -, -, e0, e1, e2, -⟩ := idx_facts t
  show (cfg0.win 4).cut (grid0.coords t) ((dats m 0 c).after 4 t) = _
  rw [after0_4]
  funext j
  obtain ⟨u, b, v, rfl⟩ : ∃ (u : Fin 1) (b : Fin 512) (v : Fin 1), j = ix3 u b v := ⟨j 0, j 1, j 2, eq_ix3 j⟩
  obtain rfl : u = 0 := Subsingleton.elim _ _
  obtain rfl : v = 0 := Subsingleton.elim _ _
  show (outsAt0 m c t.val t.isLt).1 (ix3 (0 : Fin 1) b (0 : Fin 1)) = G4 m c (((cfg0.win 4).blk t).view.emb (ix3 (0 : Fin 1) b (0 : Fin 1)))
  have E0 : ((((cfg0.win 4).blk t).view.emb (ix3 (0 : Fin 1) b (0 : Fin 1))) 0).val = t.val / 13 := by
    show win0_4.index t (0 : Fin 3) * 1 + 1 * 0 = _; rw [e0]; omega
  have E1 : ((((cfg0.win 4).blk t).view.emb (ix3 (0 : Fin 1) b (0 : Fin 1))) 1).val = b.val := by
    show win0_4.index t (1 : Fin 3) * 512 + 1 * b.val = _; rw [e1]; omega
  rw [all_last m c t.val t.isLt h12 b]
  unfold G4 allAt
  rw [E0, E1, dif_pos b.isLt]

theorem flushed5 (c : Dev nD) (t : Fin cfg0.N) (hf : (cfg0.win 5).flush t = true) :
    (dats m 0 c).flushed 5 t = ((cfg0.win 5).blk t).view.read (Elt Ideal) (G5 m c) := by
  have h12 : t.val % 13 = 12 := (flush0_5 t).mp hf
  obtain ⟨-, -, -, -, -, -, -, -, -, -, -, -, -, e0, e1, e2⟩ := idx_facts t
  show (cfg0.win 5).cut (grid0.coords t) ((dats m 0 c).after 5 t) = _
  rw [after0_5]
  funext j
  obtain ⟨u, b, v, rfl⟩ : ∃ (u : Fin 1) (b : Fin 512) (v : Fin 1), j = ix3 u b v := ⟨j 0, j 1, j 2, eq_ix3 j⟩
  obtain rfl : u = 0 := Subsingleton.elim _ _
  obtain rfl : v = 0 := Subsingleton.elim _ _
  show (outsAt0 m c t.val t.isLt).2 (ix3 (0 : Fin 1) b (0 : Fin 1)) = G5 m c (((cfg0.win 5).blk t).view.emb (ix3 (0 : Fin 1) b (0 : Fin 1)))
  have E0 : ((((cfg0.win 5).blk t).view.emb (ix3 (0 : Fin 1) b (0 : Fin 1))) 0).val = t.val / 13 := by
    show win0_5.index t (0 : Fin 3) * 1 + 1 * 0 = _; rw [e0]; omega
  have E1 : ((((cfg0.win 5).blk t).view.emb (ix3 (0 : Fin 1) b (0 : Fin 1))) 1).val = b.val := by
    show win0_5.index t (1 : Fin 3) * 512 + 1 * b.val = _; rw [e1]; omega
  rw [hit_last m c t.val t.isLt h12 b]
  unfold G5 hitAt
  rw [E0, E1, dif_pos b.isLt]

/-- Every entry of the array of total weights is in the block some write-back writes: half h's after tile 12 of half h. -/
theorem cover4 (c : Dev nD) (i : S2x512x1.Idx) :
    ∃ t : Fin cfg0.N, (cfg0.win 4).flush t = true ∧ i ∈ ((cfg0.win 4).blk t).view.set := by
  have h0 : (i 0).val < 2 := (i 0).isLt
  have h1 : (i 1).val < 512 := (i 1).isLt
  have h2 : (i 2).val < 1 := (i 2).isLt
  have hN : 13 * (i 0).val + 12 < cfg0.N := by rw [show cfg0.N = 26 from N_0]; omega
  refine ⟨⟨13 * (i 0).val + 12, hN⟩, (flush0_4 _).mpr (by show (13 * (i 0).val + 12) % 13 = 12; omega), ?_⟩
  obtain ⟨-, -, -, -, -, -, -, -, -, -, e0, e1, e2, -⟩ := idx_facts ⟨13 * (i 0).val + 12, hN⟩
  have e0' : win0_4.index ⟨13 * (i 0).val + 12, hN⟩ (0 : Fin 3) = (i 0).val := by rw [e0]; show (13 * (i 0).val + 12) / 13 = _; omega
  show i ∈ ((View.whole main_v16_0).slice (win0_4.rect ⟨13 * (i 0).val + 12, hN⟩)).set
  rw [View.set_slice_whole, Rect.mem_set_unit]
  intro a
  match a with
  | ⟨0, _⟩ =>
    show win0_4.index ⟨13 * (i 0).val + 12, hN⟩ (0 : Fin 3) * 1 ≤ (i 0).val ∧ (i 0).val < win0_4.index ⟨13 * (i 0).val + 12, hN⟩ (0 : Fin 3) * 1 + 1
    rw [e0']; omega
  | ⟨1, _⟩ =>
    show win0_4.index ⟨13 * (i 0).val + 12, hN⟩ (1 : Fin 3) * 512 ≤ (i 1).val ∧ (i 1).val < win0_4.index ⟨13 * (i 0).val + 12, hN⟩ (1 : Fin 3) * 512 + 512
    rw [e1]; omega
  | ⟨2, _⟩ =>
    show win0_4.index ⟨13 * (i 0).val + 12, hN⟩ (2 : Fin 3) * 1 ≤ (i 2).val ∧ (i 2).val < win0_4.index ⟨13 * (i 0).val + 12, hN⟩ (2 : Fin 3) * 1 + 1
    rw [e2]; omega

theorem cover5 (c : Dev nD) (i : S2x512x1.Idx) :
    ∃ t : Fin cfg0.N, (cfg0.win 5).flush t = true ∧ i ∈ ((cfg0.win 5).blk t).view.set := by
  have h0 : (i 0).val < 2 := (i 0).isLt
  have h1 : (i 1).val < 512 := (i 1).isLt
  have h2 : (i 2).val < 1 := (i 2).isLt
  have hN : 13 * (i 0).val + 12 < cfg0.N := by rw [show cfg0.N = 26 from N_0]; omega
  refine ⟨⟨13 * (i 0).val + 12, hN⟩, (flush0_5 _).mpr (by show (13 * (i 0).val + 12) % 13 = 12; omega), ?_⟩
  obtain ⟨-, -, -, -, -, -, -, -, -, -, -, -, -, e0, e1, e2⟩ := idx_facts ⟨13 * (i 0).val + 12, hN⟩
  have e0' : win0_5.index ⟨13 * (i 0).val + 12, hN⟩ (0 : Fin 3) = (i 0).val := by rw [e0]; show (13 * (i 0).val + 12) / 13 = _; omega
  show i ∈ ((View.whole main_v16_1).slice (win0_5.rect ⟨13 * (i 0).val + 12, hN⟩)).set
  rw [View.set_slice_whole, Rect.mem_set_unit]
  intro a
  match a with
  | ⟨0, _⟩ =>
    show win0_5.index ⟨13 * (i 0).val + 12, hN⟩ (0 : Fin 3) * 1 ≤ (i 0).val ∧ (i 0).val < win0_5.index ⟨13 * (i 0).val + 12, hN⟩ (0 : Fin 3) * 1 + 1
    rw [e0']; omega
  | ⟨1, _⟩ =>
    show win0_5.index ⟨13 * (i 0).val + 12, hN⟩ (1 : Fin 3) * 512 ≤ (i 1).val ∧ (i 1).val < win0_5.index ⟨13 * (i 0).val + 12, hN⟩ (1 : Fin 3) * 512 + 512
    rw [e1]; omega
  | ⟨2, _⟩ =>
    show win0_5.index ⟨13 * (i 0).val + 12, hN⟩ (2 : Fin 3) * 1 ≤ (i 2).val ∧ (i 2).val < win0_5.index ⟨13 * (i 0).val + 12, hN⟩ (2 : Fin 3) * 1 + 1
    rw [e2]; omega

/-- The two arrays after the region. -/
theorem final4 (c : Dev nD) : (dats m 0 c).arrAt 4 cfg0.N = G4 m c :=
  (dats m 0 c).arrAt_eq_of_cover 4 (G4 m c) (flushed4 m c) (cover4 c)
theorem final5 (c : Dev nD) : (dats m 0 c).arrAt 5 cfg0.N = G5 m c :=
  (dats m 0 c).arrAt_eq_of_cover 5 (G5 m c) (flushed5 m c) (cover5 c)

/-- The result buffer after the host's last lines: the loss made of the two arrays. -/
theorem tail_eq (c : Dev nD) :
    Pipeline.afterTail₀ cfgs (dats m) 0 (V0 m) [hostOps1] c main_v33 = tail (F := Ideal) (G4 m c) (G5 m c) := by
  unfold Pipeline.afterTail₀
  show StableHlo.after hostOps1 _ (Proc.devRef .tc main_v33) = _
  after_results
  rw [show Pipeline.withArrays (cfgs 0).spec c (V0 m c) (fun w => (dats m 0 c).arrAt w (cfgs 0).N) (Proc.tc.devRef main_v16_0) = G4 m c from
      (Pipeline.withArrays_arr spec0 launch0.win.arr_inj c _ _ 4).trans (final4 m c),
    show Pipeline.withArrays (cfgs 0).spec c (V0 m c) (fun w => (dats m 0 c).arrAt w (cfgs 0).N) (Proc.tc.devRef main_v16_1) = G5 m c from
      (Pipeline.withArrays_arr spec0 launch0.win.arr_inj c _ _ 5).trans (final5 m c)]
  rfl

/-- THE RUN, READ: every weakly fair execution terminates with the result buffer at the loss made of the two
    accumulated arrays, and the four argument arrays as launched. -/
theorem run : θ_run defs (onTc (τ := τ) (main (F := Ideal))) ⟨m, fun _ => 0, ρ⟩ fun r => ∀ c : Dev nD,
      r.2.mem ((c.tc : Thread nD τ).loc main_v33) = tail (F := Ideal) (G4 m c) (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v33 (Pipeline.mem_restRefs_of main_v33 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Entry.lean ====
import proofs.«164127_j1657857376324_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic

set_option maxRecDepth 16384

noncomputable section

namespace Cert.KernelIdeal.Entry

open Idealize.ShloMosaic Idealize.ShloMosaic.TcCoe Idealize.SL.Sem Idealize.ShloMosaic.ValueIdx Cert.KernelIdeal Cert.KernelIdeal.Gen

/-! ## The layout operations of the entry code read at an index

Each half of the bank is sliced off the bank, padded below with 3248 rows holding one value, given a leading unit
axis, and the two are stacked along that axis. Read at (h, j, k) the stack is row `50000 * h + j` of the bank for
`j < 50000` and the padding value otherwise. The same holds for the one-axis array of labels, which is then
reshaped with a unit axis in the middle. -/

section Pure
variable {α : Type}

/-- A slice of 50000 rows of the bank starting at row `off`, read at (j, k), is the bank at (off + j, k). -/
theorem slice2_at (A : S100000x128.Idx → α) (off : ℕ) (hs : S100000x128.Slices ![off, 0] S50000x128)
    (j : Fin 50000) (k : Fin 128) (r : Fin 100000) (hr : r.val = off + j.val) :
    extractStridedSlice S50000x128 ![off, 0] A hs (ix2 j k) = A (ix2 r k) := by
  refine extractStridedSlice_apply ![off, 0] A hs (ix2 j k) (ix2 r k) ?_
  intro a
  match a with
  | ⟨0, _⟩ => show r.val = off + j.val; exact hr
  | ⟨1, _⟩ => show k.val = 0 + k.val; omega

/-- A slice of 50000 entries of the label array starting at `off`, read at j, is the array at off + j. -/
theorem slice1_at (A : S100000.Idx → α) (off : ℕ) (hs : S100000.Slices ![off] S50000)
    (j : Fin 50000) (r : Fin 100000) (hr : r.val = off + j.val) :
    extractStridedSlice S50000 ![off] A hs (ix1 j) = A (ix1 r) := by
  refine extractStridedSlice_apply ![off] A hs (ix1 j) (ix1 r) ?_
  intro a
  match a with
  | ⟨0, _⟩ => show r.val = off + j.val; exact hr

/-- One padded half under a leading unit axis, read at (0, j, k): the half at (j, k) below row 50000, the padding
    value from there on. -/
theorem half2_at (x : S50000x128.Idx → α) (z : S_.Idx → α)
    (hp : S50000x128.Pads (![0, 0] : Fin 2 → Nat) ![3248, 0] ![0, 0] S53248x128) (hu : 0 < S_.numel)
    (hb : S53248x128.BroadcastsInDim S1x53248x128 (![1, 2] : Fin 2 → Fin S1x53248x128.rank))
    (j : Fin 53248) (k : Fin 128) :
    broadcastInDim S1x53248x128 ![1, 2] hb (pad S53248x128 ![0, 0] ![3248, 0] ![0, 0] x z hp hu) (ix3 (0 : Fin 1) j k)
      = if hj : j.val < 50000 then x (ix2 (⟨j.val, hj⟩ : Fin 50000) k) else z ix0 := by
  refine (broadcastInDim_apply ![1, 2] hb _ (ix3 (0 : Fin 1) j k) (ix2 j k) ?_).trans ?_
  · intro a
    match a with
    | ⟨0, _⟩ => show j.val = if (53248 : ℕ) = 1 then 0 else j.val; simp
    | ⟨1, _⟩ => show k.val = if (128 : ℕ) = 1 then 0 else k.val; simp
  · by_cases hj : j.val < 50000
    · rw [dif_pos hj]
      refine pad_apply_of_inside _ _ _ x z hp hu (ix2 j k) (ix2 (⟨j.val, hj⟩ : Fin 50000) k) ?_
      intro a
      match a with
      | ⟨0, _⟩ => show j.val = 0 + j.val * (0 + 1); omega
      | ⟨1, _⟩ => show k.val = 0 + k.val * (0 + 1); omega
    · rw [dif_neg hj]
      refine (pad_apply_of_not_inside _ _ _ x z hp hu (ix2 j k) (0 : Fin 2) ?_).trans (congrArg z (eq_ix0 _))
      show ¬(0 ≤ j.val ∧ (j.val - 0) % (0 + 1) = 0 ∧ (j.val - 0) / (0 + 1) < 50000)
      omega

/-- One padded half of the labels under a leading unit axis, read at (0, j). -/
theorem half1_at (x : S50000.Idx → α) (z : S_.Idx → α)
    (hp : S50000.Pads (![0] : Fin 1 → Nat) ![3248] ![0] S53248) (hu : 0 < S_.numel)
    (hb : S53248.BroadcastsInDim S1x53248 (![1] : Fin 1 → Fin S1x53248.rank))
    (j : Fin 53248) :
    broadcastInDim S1x53248 ![1] hb (pad S53248 ![0] ![3248] ![0] x z hp hu) (ix2 (0 : Fin 1) j)
      = if hj : j.val < 50000 then x (ix1 (⟨j.val, hj⟩ : Fin 50000)) else z ix0 := by
  refine (broadcastInDim_apply ![1] hb _ (ix2 (0 : Fin 1) j) (ix1 j) ?_).trans ?_
  · intro a
    match a with
    | ⟨0, _⟩ => show j.val = if (53248 : ℕ) = 1 then 0 else j.val; simp
  · by_cases hj : j.val < 50000
    · rw [dif_pos hj]
      refine pad_apply_of_inside _ _ _ x z hp hu (ix1 j) (ix1 (⟨j.val, hj⟩ : Fin 50000)) ?_
      intro a
      match a with
      | ⟨0, _⟩ => show j.val = 0 + j.val * (0 + 1); omega
    · rw [dif_neg hj]
      refine (pad_apply_of_not_inside _ _ _ x z hp hu (ix1 j) (0 : Fin 1) ?_).trans (congrArg z (eq_ix0 _))
      show ¬(0 ≤ j.val ∧ (j.val - 0) % (0 + 1) = 0 ∧ (j.val - 0) / (0 + 1) < 50000)
      omega

/-- The stack of two arrays with a leading unit axis, read at (h, j, k): the first for h = 0, the second for h = 1. -/
theorem stack3_at (x0 x1 : S1x53248x128.Idx → α)
    (hc : Shape.Concatenates [S1x53248x128, S1x53248x128] S2x53248x128 0) (h : Fin 2) (j : Fin 53248) (k : Fin 128) :
    concatenate S2x53248x128 0 [⟨S1x53248x128, x0⟩, ⟨S1x53248x128, x1⟩] hc (ix3 h j k)
      = if h.val = 0 then x0 (ix3 (0 : Fin 1) j k) else x1 (ix3 (0 : Fin 1) j k) := by
  match h with
  | ⟨0, _⟩ =>
    rw [if_pos rfl]
    refine concatenate_pair_apply_left 0 x0 x1 hc (ix3 (⟨0, by omega⟩ : Fin 2) j k) rfl (ix3 (0 : Fin 1) j k) ?_
    intro b
    match b with
    | ⟨0, _⟩ => rfl
    | ⟨1, _⟩ => rfl
    | ⟨2, _⟩ => rfl
  | ⟨1, _⟩ =>
    rw [if_neg (show ¬((1 : ℕ) = 0) by omega)]
    refine concatenate_pair_apply_right 0 x0 x1 hc (ix3 (⟨1, by omega⟩ : Fin 2) j k) rfl rfl (ix3 (0 : Fin 1) j k) ?_ ?_
    · intro b hb
      match b, hb with
      | ⟨0, _⟩, hb => exact absurd rfl hb
      | ⟨1, _⟩, _ => rfl
      | ⟨2, _⟩, _ => rfl
    · rfl

/-- The stack of two label arrays with a leading unit axis, read at (h, j). -/
theorem stack2_at (x0 x1 : S1x53248.Idx → α)
    (hc : Shape.Concatenates [S1x53248, S1x53248] S2x53248 0) (h : Fin 2) (j : Fin 53248) :
    concatenate S2x53248 0 [⟨S1x53248, x0⟩, ⟨S1x53248, x1⟩] hc (ix2 h j)
      = if h.val = 0 then x0 (ix2 (0 : Fin 1) j) else x1 (ix2 (0 : Fin 1) j) := by
  match h with
  | ⟨0, _⟩ =>
    rw [if_pos rfl]
    refine concatenate_pair_apply_left 0 x0 x1 hc (ix2 (⟨0, by omega⟩ : Fin 2) j) rfl (ix2 (0 : Fin 1) j) ?_
    intro b
    match b with
    | ⟨0, _⟩ => rfl
    | ⟨1, _⟩ => rfl
  | ⟨1, _⟩ =>
    rw [if_neg (show ¬((1 : ℕ) = 0) by omega)]
    refine concatenate_pair_apply_right 0 x0 x1 hc (ix2 (⟨1, by omega⟩ : Fin 2) j) rfl rfl (ix2 (0 : Fin 1) j) ?_ ?_
    · intro b hb
      match b, hb with
      | ⟨0, _⟩, hb => exact absurd rfl hb
      | ⟨1, _⟩, _ => rfl
    · rfl

/-- The bank's two padded halves stacked, read at (h, j, k). -/
theorem bank_term_at (A : S100000x128.Idx → α) (z : S_.Idx → α)
    (hs0 : S100000x128.Slices ![0, 0] S50000x128) (hs1 : S100000x128.Slices ![50000, 0] S50000x128)
    (hp : S50000x128.Pads (![0, 0] : Fin 2 → Nat) ![3248, 0] ![0, 0] S53248x128) (hu : 0 < S_.numel)
    (hb : S53248x128.BroadcastsInDim S1x53248x128 (![1, 2] : Fin 2 → Fin S1x53248x128.rank))
    (hc : Shape.Concatenates [S1x53248x128, S1x53248x128] S2x53248x128 0)
    (h : Fin 2) (j : Fin 53248) (k : Fin 128) :
    concatenate S2x53248x128 0
        [⟨S1x53248x128, broadcastInDim S1x53248x128 ![1, 2] hb
            (pad S53248x128 ![0, 0] ![3248, 0] ![0, 0] (extractStridedSlice S50000x128 ![0, 0] A hs0) z hp hu)⟩,
         ⟨S1x53248x128, broadcastInDim S1x53248x128 ![1, 2] hb
            (pad S53248x128 ![0, 0] ![3248, 0] ![0, 0] (extractStridedSlice S50000x128 ![50000, 0] A hs1) z hp hu)⟩]
        hc (ix3 h j k)
      = if hj : j.val < 50000 then
          A (ix2 (⟨50000 * h.val + j.val, by have := h.isLt; omega⟩ : Fin 100000) k)
        else z ix0 := by
  rw [stack3_at, half2_at, half2_at]
  match h with
  | ⟨0, _⟩ =>
    rw [if_pos rfl]
    by_cases hj : j.val < 50000
    · rw [dif_pos hj, dif_pos hj]; exact slice2_at A 0 hs0 _ k _ (by show 50000 * 0 + j.val = 0 + j.val; omega)
    · rw [dif_neg hj, dif_neg hj]
  | ⟨1, _⟩ =>
    rw [if_neg (show ¬((1 : ℕ) = 0) by omega)]
    by_cases hj : j.val < 50000
    · rw [dif_pos hj, dif_pos hj]; exact slice2_at A 50000 hs1 _ k _ (by show 50000 * 1 + j.val = 50000 + j.val; omega)
    · rw [dif_neg hj, dif_neg hj]

/-- The label array's two padded halves stacked and given a unit middle axis, read at (h, 0, j). -/
theorem label_term_at (A : S100000.Idx → α) (z0 z1 : S_.Idx → α)
    (hs0 : S100000.Slices ![0] S50000) (hs1 : S100000.Slices ![50000] S50000)
    (hp : S50000.Pads (![0] : Fin 1 → Nat) ![3248] ![0] S53248) (hu : 0 < S_.numel)
    (hb : S53248.BroadcastsInDim S1x53248 (![1] : Fin 1 → Fin S1x53248.rank))
    (hc : Shape.Concatenates [S1x53248, S1x53248] S2x53248 0)
    (hr : S2x53248.ShapeCasts S2x1x53248)
    (h : Fin 2) (j : Fin 53248) :
    shapeCast S2x1x53248 (concatenate S2x53248 0
        [⟨S1x53248, broadcastInDim S1x53248 ![1] hb
            (pad S53248 ![0] ![3248] ![0] (extractStridedSlice S50000 ![0] A hs0) z0 hp hu)⟩,
         ⟨S1x53248, broadcastInDim S1x53248 ![1] hb
            (pad S53248 ![0] ![3248] ![0] (extractStridedSlice S50000 ![50000] A hs1) z1 hp hu)⟩]
        hc) hr (ix3 h (0 : Fin 1) j)
      = if hj : j.val < 50000 then
          A (ix1 (⟨50000 * h.val + j.val, by have := h.isLt; omega⟩ : Fin 100000))
        else (if h.val = 0 then z0 ix0 else z1 ix0) := by
  refine (shapeCast_apply _ hr (ix3 h (0 : Fin 1) j) (ix2 h j) ?_).trans ?_
  · rw [Shape.rowMajor_val_two, Shape.rowMajor_val_three]
    show h.val * 53248 + j.val = (h.val * 1 + 0) * 53248 + j.val
    omega
  rw [stack2_at, half1_at, half1_at]
  match h with
  | ⟨0, _⟩ =>
    rw [if_pos rfl]
    by_cases hj : j.val < 50000
    · rw [dif_pos hj, dif_pos hj]; exact slice1_at A 0 hs0 _ _ (by show 50000 * 0 + j.val = 0 + j.val; omega)
    · rw [dif_neg hj, dif_neg hj, if_pos rfl]
  | ⟨1, _⟩ =>
    rw [if_neg (show ¬((1 : ℕ) = 0) by omega)]
    by_cases hj : j.val < 50000
    · rw [dif_pos hj, dif_pos hj]; exact slice1_at A 50000 hs1 _ _ (by show 50000 * 1 + j.val = 50000 + j.val; omega)
    · rw [dif_neg hj, dif_neg hj, if_neg (show ¬((1 : ℕ) = 0) by omega)]

/-- A one-axis array of 512 entries reshaped to a column, read at (b, 0), is the array at b. -/
theorem column_at (A : S512.Idx → α) (hr : S512.ShapeCasts S512x1) (b : Fin 512) :
    shapeCast S512x1 A hr (ix2 b (0 : Fin 1)) = A (ix1 b) := by
  refine shapeCast_apply A hr (ix2 b (0 : Fin 1)) (ix1 b) ?_
  rw [Shape.rowMajor_val_two, Shape.rowMajor_val_one]
  show b.val = b.val * 1 + 0
  omega

end Pure

/-! ## The arrays the region finds, read at an index -/

variable (m : (ℓ : Loc nD τ sig) → Buf (Elt Ideal) ℓ)

/-- The stacked, padded bank the entry code leaves, as a term of the bank argument. -/
theorem V_main_v6 (c : Dev nD) :
    (V m c main_v6 : S2x53248x128.Idx → EReal)
      = concatenate S2x53248x128 0
          [⟨S1x53248x128, broadcastInDim S1x53248x128 ![1, 2] bcast_S53248x128_S1x53248x128_1_2
              (pad S53248x128 ![0, 0] ![3248, 0] ![0, 0]
                (extractStridedSlice S50000x128 ![0, 0]
                  (m ((c : Thread nD τ).loc main_arg1) : S100000x128.Idx → EReal) slices_S100000x128_S50000x128_0_0)
                (sitofp (F := Ideal) .f32 (constantI S_ 32 0#32))
                pads_S50000x128_S53248x128_032480_000 h_S_)⟩,
           ⟨S1x53248x128, broadcastInDim S1x53248x128 ![1, 2] bcast_S53248x128_S1x53248x128_1_2
              (pad S53248x128 ![0, 0] ![3248, 0] ![0, 0]
                (extractStridedSlice S50000x128 ![50000, 0]
                  (m ((c : Thread nD τ).loc main_arg1) : S100000x128.Idx → EReal) slices_S100000x128_S50000x128_50000_0)
                (sitofp (F := Ideal) .f32 (constantI S_ 32 0#32))
                pads_S50000x128_S53248x128_032480_000 h_S_)⟩]
          concatenates_S1x53248x128_S1x53248x128_S2x53248x128_d0 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The column of query labels the entry code leaves, as a term of the label argument. -/
theorem V_main_v15 (c : Dev nD) :
    (V m c main_v15 : S512x1.Idx → BitVec 32)
      = shapeCast S512x1 (m ((c : Thread nD τ).loc main_arg2) : S512.Idx → BitVec 32) shapeCasts_S512_S512x1 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The padding value of the bank: the integer zero as a real. -/
theorem pad_zero : (sitofp (F := Ideal) .f32 (constantI S_ 32 0#32)) ix0 = (0 : EReal) := by
  show (((0#32 : BitVec 32).toInt : ℝ) : EReal) = 0
  simp

/-- The stacked bank at (h, j, k): row `50000 * h + j` of the bank below row 50000 of the half, zero from there on. -/
theorem bank_at (c : Dev nD) (h : Fin 2) (j : Fin 53248) (k : Fin 128) :
    V m c main_v6 (ix3 h j k)
      = if hj : j.val < 50000 then
          m ((c : Thread nD τ).loc main_arg1) (ix2 (⟨50000 * h.val + j.val, by have := h.isLt; omega⟩ : Fin 100000) k)
        else (0 : EReal) := by
  refine (congrFun (V_main_v6 m c) (ix3 h j k)).trans ?_
  rw [bank_term_at, pad_zero]

/-- The column of query labels at (b, 0): the label argument at b. -/
theorem queryLabel_at (c : Dev nD) (b : Fin 512) :
    V m c main_v15 (ix2 b (0 : Fin 1)) = m ((c : Thread nD τ).loc main_arg2) (ix1 b) := by
  refine (congrFun (V_main_v15 m c) (ix2 b (0 : Fin 1))).trans ?_
  exact column_at _ _ b

set_option maxHeartbeats 1600000 in
/-- The stacked, padded bank labels the entry code leaves, as a term of the bank-label argument. -/
theorem V_main_v14 (c : Dev nD) :
    (V m c main_v14 : S2x1x53248.Idx → BitVec 32)
      = shapeCast S2x1x53248 (concatenate S2x53248 0
          [⟨S1x53248, broadcastInDim S1x53248 ![1] bcast_S53248_S1x53248_1
              (pad S53248 ![0] ![3248] ![0]
                (extractStridedSlice S50000 ![0]
                  (m ((c : Thread nD τ).loc main_arg3) : S100000.Idx → BitVec 32) slices_S100000_S50000_0)
                (constantI S_ 32 4294967295#32) pads_S50000_S53248_032480 h_S_)⟩,
           ⟨S1x53248, broadcastInDim S1x53248 ![1] bcast_S53248_S1x53248_1
              (pad S53248 ![0] ![3248] ![0]
                (extractStridedSlice S50000 ![50000]
                  (m ((c : Thread nD τ).loc main_arg3) : S100000.Idx → BitVec 32) slices_S100000_S50000_50000)
                (constantI S_ 32 4294967295#32) pads_S50000_S53248_032480 h_S_)⟩]
          concatenates_S1x53248_S1x53248_S2x53248_d0) shapeCasts_S2x53248_S2x1x53248 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The stacked bank labels at (h, 0, j): label `50000 * h + j` below entry 50000 of the half, the all-ones word from
    there on. -/
theorem bankLabel_at (c : Dev nD) (h : Fin 2) (j : Fin 53248) :
    V m c main_v14 (ix3 h (0 : Fin 1) j)
      = if hj : j.val < 50000 then
          m ((c : Thread nD τ).loc main_arg3) (ix1 (⟨50000 * h.val + j.val, by have := h.isLt; omega⟩ : Fin 100000))
        else 4294967295#32 := by
  refine (congrFun (V_main_v14 m c) (ix3 h (0 : Fin 1) j)).trans ?_
  rw [label_term_at]
  by_cases hj : j.val < 50000
  · rw [dif_pos hj, dif_pos hj]
  · rw [dif_neg hj, dif_neg hj]
    split <;> rfl

end Cert.KernelIdeal.Entry
-- ==== Proof.Sums.lean ====
import Idealize.ShloMosaic.PureOps.Ideal

/-!
# Finite sums over a padded, tiled bank, and the removal of the padding

A bank of 100000 rows is cut into two halves of 50000 rows.  Each half is extended by
3248 rows holding a constant `p`, to 53248 = 13 * 4096 rows, and is summed tile by tile
(13 tiles of 4096 rows).  The total is the sum over the bank plus 6496 copies of `p`.
The second part is the extended-real arithmetic that subtracts the 6496 padded ones again.
-/

namespace Cert.Nce.Sums

open scoped BigOperators
open Finset

/-- Row j of half c of the padded bank: the bank's row 50000*c + j below 50000, the constant above. -/
def padded {M : Type*} (w : Fin 100000 → M) (p : M) (c : Fin 2) (j : ℕ) : M :=
  if h : j < 50000 then w ⟨50000 * c.val + j, by have := c.isLt; omega⟩ else p

/-- A sum over `range 13` is the sum over `Fin 13` of the values at the underlying naturals. -/
theorem sum_tiles_range {M : Type*} [AddCommMonoid M] (f : ℕ → M) :
    ∑ t ∈ Finset.range 13, f t = ∑ t : Fin 13, f t.val :=
  (Fin.sum_univ_eq_sum_range f 13).symm

/-- Summing `a` consecutive blocks of length `b` is summing the first `a * b` terms. -/
theorem sum_blocks_range {M : Type*} [AddCommMonoid M] (g : ℕ → M) (b : ℕ) :
    ∀ a : ℕ, ∑ t ∈ range a, ∑ l ∈ range b, g (b * t + l) = ∑ j ∈ range (a * b), g j
  | 0 => by simp
  | a + 1 => by
      rw [sum_range_succ, sum_blocks_range g b a, Nat.succ_mul, sum_range_add, Nat.mul_comm b a]

/-- The same with both indices in `Fin`. -/
theorem sum_blocks {M : Type*} [AddCommMonoid M] (g : ℕ → M) (a b : ℕ) :
    ∑ t : Fin a, ∑ l : Fin b, g (b * t.val + l.val) = ∑ j ∈ range (a * b), g j := by
  rw [← sum_blocks_range g b a, ← Fin.sum_univ_eq_sum_range (fun t => ∑ l ∈ range b, g (b * t + l)) a]
  refine sum_congr rfl fun t _ => ?_
  exact Fin.sum_univ_eq_sum_range (fun l => g (b * t.val + l)) b

/-- One half: the 13 tiles of 4096 rows sum to the half's 50000 bank rows plus 3248 copies of `p`. -/
theorem sum_tiles_half {M : Type*} [AddCommMonoid M] (w : Fin 100000 → M) (p : M) (c : Fin 2) :
    ∑ t : Fin 13, ∑ l : Fin 4096, padded w p c (4096 * t.val + l.val)
      = ∑ j : Fin 50000, w ⟨50000 * c.val + j.val, by have := c.isLt; have := j.isLt; omega⟩
        + 3248 • p := by
  rw [sum_blocks (padded w p c) 13 4096]
  rw [show 13 * 4096 = 50000 + 3248 by norm_num, sum_range_add]
  have h1 : ∑ x ∈ range 50000, padded w p c x
      = ∑ j : Fin 50000, w ⟨50000 * c.val + j.val, by have := c.isLt; have := j.isLt; omega⟩ := by
    rw [← Fin.sum_univ_eq_sum_range (padded w p c) 50000]
    refine sum_congr rfl fun j _ => ?_
    simp [padded, j.isLt]
  have h2 : ∑ x ∈ range 3248, padded w p c (50000 + x) = 3248 • p := by
    rw [sum_congr rfl (g := fun _ => p) (fun x _ => by simp [padded])]
    simp
  rw [h1, h2]

/-- The whole bank: both halves, tile by tile, sum to the bank's sum plus 6496 copies of `p`. -/
theorem sum_tiles {M : Type*} [AddCommMonoid M] (w : Fin 100000 → M) (p : M) :
    ∑ c : Fin 2, ∑ t : Fin 13, ∑ l : Fin 4096, padded w p c (4096 * t.val + l.val)
      = ∑ n : Fin 100000, w n + 6496 • p := by
  simp only [sum_tiles_half, Fin.sum_univ_two]
  have hw : ∑ n : Fin 100000, w n
      = ∑ j : Fin 50000, w ⟨50000 * (0 : Fin 2).val + j.val, by have := j.isLt; simp; omega⟩
        + ∑ j : Fin 50000, w ⟨50000 * (1 : Fin 2).val + j.val, by have := j.isLt; simp; omega⟩ := by
    have h := Fin.sum_univ_add (a := 50000) (b := 50000) (M := M) w
    rw [h]
    refine congrArg₂ (· + ·) (sum_congr rfl fun j _ => congrArg w (Fin.ext ?_))
      (sum_congr rfl fun j _ => congrArg w (Fin.ext ?_))
    · simp
    · simp [Nat.add_comm]
  rw [hw, show (6496 : ℕ) = 3248 + 3248 by norm_num, add_nsmul]
  abel

/-! ### Extended-real arithmetic -/

open Idealize.ShloMosaic

/-- The 32-bit pattern `0x45CB0000` denotes 6496 = (2^23 + 0x4B0000) * 2^(139 - 127 - 23). -/
theorem pad_literal : Idealize.ShloMosaic.Ideal.ofBits .f32 0x45CB0000#32 = ((6496 : ℝ) : EReal) := by
  simp [Ideal.ofBits, Ideal.ieee, -EReal.coe_mul]; norm_num

/-- 6496 copies of the extended real 1 are the real 6496. -/
theorem nsmul_one_eq : (6496 : ℕ) • (1 : EReal) = ((6496 : ℝ) : EReal) := by
  rw [← EReal.coe_one, ← EReal.coe_nsmul]; norm_num

/-- Adding 6496 ones to a real and subtracting the real 6496 gives the real back. -/
theorem remove_padding (s : ℝ) :
    ((s : EReal) + (6496 : ℕ) • (1 : EReal)) - ((6496 : ℝ) : EReal) = (s : EReal) := by
  rw [nsmul_one_eq, ← EReal.coe_add, ← EReal.coe_sub, add_sub_cancel_right]

/-- The inclusion of the reals in the extended reals commutes with finite sums. -/
theorem coe_sum {ι : Type*} (S : Finset ι) (f : ι → ℝ) :
    ((∑ i ∈ S, f i : ℝ) : EReal) = ∑ i ∈ S, (f i : EReal) := by
  induction S using Finset.cons_induction with
  | empty => simp
  | cons a s ha ih => rw [sum_cons, sum_cons, EReal.coe_add, ih]

/-- With the two partial denominators adding to the bank's sum plus 6496 ones, the quotient by
the denominator less the literal 6496 is the quotient by the bank's sum. -/
theorem kernel_ratio (w : Fin 100000 → ℝ) (hit : Fin 100000 → Prop) [DecidablePred hit]
    (se0 se1 sm0 sm1 : EReal)
    (hse : se0 + se1 = (∑ n, (w n : EReal)) + (6496 : ℕ) • (1 : EReal)) :
    Idealize.ShloMosaic.Ideal.div (sm0 + sm1)
        (se0 + se1 - Idealize.ShloMosaic.Ideal.ofBits .f32 0x45CB0000#32)
      = Idealize.ShloMosaic.Ideal.div (sm0 + sm1) (∑ n, (w n : EReal)) := by
  rw [hse, pad_literal, ← coe_sum, remove_padding]

end Cert.Nce.Sums
-- ==== Proof.Tile.lean ====
/-
  One tile's sums in terms of the argument arrays.

  Tile s of half h holds rows 4096 s .. 4096 s + 4095 of the padded half: row j of the padded half is row
  50000 h + j of the memory bank when j < 50000 and a zero row otherwise.  A zero row has inner product 0 with
  every query row, hence weight exp 0 = 1; its label is the word -1, which no query label equals when the
  query labels are non-negative, so it adds nothing to the matching weight.
-/
import proofs.«164127_j1657857376324_2_alg».proof.Proof.Final
import proofs.«164127_j1657857376324_2_alg».proof.Proof.Entry
import proofs.«164127_j1657857376324_2_alg».proof.Proof.Sums
import proofs.«164127_j1657857376324_2_alg».proof.Proof.Spec
import Idealize.ShloMosaic.PureOps.IdealRules

set_option maxRecDepth 16384

noncomputable section

open Idealize.ShloMosaic Idealize.ShloMosaic.TcCoe Idealize.SL.Sem Idealize.ShloMosaic.ValueIdx

namespace Cert.KernelIdeal.Tile

open Cert.KernelIdeal Cert.KernelIdeal.Gen Cert.KernelIdeal.Payload Cert.KernelIdeal.Accum Cert.KernelIdeal.Blocks
open Cert.KernelIdeal.Entry Cert.KernelIdeal.Final Cert.Nce

variable (m : (ℓ : Loc nD τ sig) → Buf (Elt Ideal) ℓ)

/-- The four argument arrays of core `c`. -/
abbrev Xq (c : Dev nD) : SQ.Idx → EReal := m ((c : Thread nD τ).loc main_arg0)
abbrev Fb (c : Dev nD) : SB.Idx → EReal := m ((c : Thread nD τ).loc main_arg1)
abbrev Lq (c : Dev nD) : SQL.Idx → BitVec 32 := m ((c : Thread nD τ).loc main_arg2)
abbrev Lb (c : Dev nD) : SBL.Idx → BitVec 32 := m ((c : Thread nD τ).loc main_arg3)

/-- The named scale is one seven-thousandth. -/
theorem scale_eq : scale = ((1 / 7000 : ℝ) : EReal) := IdealRules.named_const.ideal_named_scalar _ _ _ _ rfl

theorem exp_zero : Ideal.exp 0 = 1 := by
  rw [← EReal.coe_zero]
  show ((Real.exp 0 : ℝ) : EReal) = 1
  rw [Real.exp_zero, EReal.coe_one]

/-- The weight of a tile row from the entries of the two rows it multiplies. -/
theorem tileWgt_of (x0 : FVec Ideal S512x128 .f32) (x1 : FVec Ideal S1x4096x128 .f32) (b : Fin 512) (l : Fin 4096)
    (Xr Yr : Fin 128 → EReal) (h0 : ∀ k, x0 (ix2 b k) = Xr k) (h1 : ∀ k, x1 (ix3 (0 : Fin 1) l k) = Yr k) :
    tileWgt x0 x1 b l = Ideal.exp ((∑ k : Fin 128, Xr k * Yr k) * scale) := by
  unfold tileWgt
  rw [Finset.sum_congr rfl fun k _ => by rw [h0 k, h1 k]]

/-- The weight of tile row l at grid point t is the padded bank's weight at row 4096 (t % 13) + l of half t / 13. -/
theorem tileWgt_eq (c : Dev nD) (t : Fin cfg0.N) (b : Fin 512) (l : Fin 4096) (h : Fin 2) (s : ℕ)
    (hh : h.val = t.val / 13) (hs : s = t.val % 13) :
    tileWgt (iblk m c 0 t) (iblk m c 1 t) b l
      = Sums.padded (fun n => wgt (Xq m c) (Fb m c) b n) 1 h (4096 * s + l.val) := by
  subst hs
  have hl := l.isLt
  have hmod : t.val % 13 < 13 := Nat.mod_lt _ (by decide)
  have hj : 4096 * (t.val % 13) + l.val < 53248 := by omega
  refine (tileWgt_of (iblk m c 0 t) (iblk m c 1 t) b l (fun k => Xq m c (ix2 b k))
    (fun k => V m c main_v6 (ix3 h (⟨4096 * (t.val % 13) + l.val, hj⟩ : Fin 53248) k))
    (fun k => (query_blk m c t b k).trans (congrFun (V_main_arg0 m c) (ix2 b k)))
    (fun k => bank_blk m c t l k h ⟨_, hj⟩ hh rfl)).trans ?_
  unfold Sums.padded
  by_cases hlt : 4096 * (t.val % 13) + l.val < 50000
  · rw [dif_pos hlt]
    have e2 : ∀ k : Fin 128, (V m c main_v6 (ix3 h (⟨4096 * (t.val % 13) + l.val, hj⟩ : Fin 53248) k) : EReal)
        = Fb m c (ix2 (⟨50000 * h.val + (4096 * (t.val % 13) + l.val), by have := h.isLt; omega⟩ : Fin 100000) k) := fun k => by
      rw [bank_at m c h ⟨_, hj⟩ k, dif_pos hlt]
    rw [Finset.sum_congr rfl fun k _ => congrArg (Xq m c (ix2 b k) * ·) (e2 k), scale_eq]
    rfl
  · rw [dif_neg hlt]
    have e2 : ∀ k : Fin 128, (V m c main_v6 (ix3 h (⟨4096 * (t.val % 13) + l.val, hj⟩ : Fin 53248) k) : EReal) = (0 : EReal) := fun k => by
      rw [bank_at m c h ⟨_, hj⟩ k, dif_neg hlt]
    rw [Finset.sum_congr rfl fun k _ => (congrArg (Xq m c (ix2 b k) * ·) (e2 k)).trans (mul_zero _),
      Finset.sum_const_zero, zero_mul]
    exact exp_zero

/-- The matching weight of tile row l, likewise; the padding rows match no non-negative query label. -/
theorem tileHit_eq (c : Dev nD) (t : Fin cfg0.N) (b : Fin 512) (l : Fin 4096) (h : Fin 2) (s : ℕ)
    (hh : h.val = t.val / 13) (hs : s = t.val % 13) (hL : Lq m c (ix1 b) ≠ 4294967295#32) :
    (if (iblk m c 2 t : IVec S512x1 32) (ix2 b (0 : Fin 1)) = (iblk m c 3 t : IVec S1x1x4096 32) (ix3 (0 : Fin 1) (0 : Fin 1) l)
      then tileWgt (iblk m c 0 t) (iblk m c 1 t) b l else 0)
      = Sums.padded (fun n => if Lq m c (ix1 b) = Lb m c (ix1 n) then wgt (Xq m c) (Fb m c) b n else 0) 0 h (4096 * s + l.val) := by
  rw [tileWgt_eq m c t b l h s hh hs]
  subst hs
  have hl := l.isLt
  have hmod : t.val % 13 < 13 := Nat.mod_lt _ (by decide)
  have hj : 4096 * (t.val % 13) + l.val < 53248 := by omega
  rw [queryLabel_blk m c t b, queryLabel_at m c b, bankLabel_blk m c t l h ⟨_, hj⟩ hh rfl, bankLabel_at m c h ⟨_, hj⟩]
  unfold Sums.padded
  by_cases hlt : 4096 * (t.val % 13) + l.val < 50000
  · rw [dif_pos hlt, dif_pos hlt, dif_pos hlt]
  · rw [dif_neg hlt, dif_neg hlt, dif_neg hlt, if_neg hL]

/-- Half h's total weight for query row b, over the argument arrays. -/
theorem allAt_eq (c : Dev nD) (h : Fin 2) (b : Fin 512) :
    allAt m c h.val b.val
      = 0 + ∑ s ∈ Finset.range 13, ∑ l : Fin 4096, Sums.padded (fun n => wgt (Xq m c) (Fb m c) b n) 1 h (4096 * s + l.val) := by
  unfold allAt
  rw [dif_pos b.isLt]
  refine congrArg (0 + ·) (Finset.sum_congr rfl fun s hs => ?_)
  have hs13 : s < 13 := Finset.mem_range.mp hs
  have hN : 13 * h.val + s < cfg0.N := by rw [show cfg0.N = 26 from N_0]; have := h.isLt; omega
  refine (tileAll_of_lt m c ⟨13 * h.val + s, hN⟩ b).trans ?_
  exact Finset.sum_congr rfl fun l _ => tileWgt_eq m c ⟨13 * h.val + s, hN⟩ b l h s
    (by show h.val = (13 * h.val + s) / 13; omega) (by show s = (13 * h.val + s) % 13; omega)

/-- Half h's matching weight for query row b, over the argument arrays. -/
theorem hitAt_eq (c : Dev nD) (h : Fin 2) (b : Fin 512) (hL : Lq m c (ix1 b) ≠ 4294967295#32) :
    hitAt m c h.val b.val
      = 0 + ∑ s ∈ Finset.range 13, ∑ l : Fin 4096,
          Sums.padded (fun n => if Lq m c (ix1 b) = Lb m c (ix1 n) then wgt (Xq m c) (Fb m c) b n else 0) 0 h (4096 * s + l.val) := by
  unfold hitAt
  rw [dif_pos b.isLt]
  refine congrArg (0 + ·) (Finset.sum_congr rfl fun s hs => ?_)
  have hs13 : s < 13 := Finset.mem_range.mp hs
  have hN : 13 * h.val + s < cfg0.N := by rw [show cfg0.N = 26 from N_0]; have := h.isLt; omega
  refine (tileHit_of_lt m c ⟨13 * h.val + s, hN⟩ b).trans ?_
  exact Finset.sum_congr rfl fun l _ => tileHit_eq m c ⟨13 * h.val + s, hN⟩ b l h s
    (by show h.val = (13 * h.val + s) / 13; omega) (by show s = (13 * h.val + s) % 13; omega) hL

end Cert.KernelIdeal.Tile

end
-- ==== Proof.TailAt.lean ====
/-
  The host's last lines at an index: the loss from the two accumulated arrays.

  Per query row b the two halves' entries of each array are added, the literal 6496 is taken off the total, and the
  logarithm of the quotient is summed over the 512 query rows from 0, negated and divided by 512.
-/
import proofs.«164127_j1657857376324_2_alg».proof.Proof.Tail
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.TailAt

open Cert.KernelIdeal Cert.KernelIdeal.Gen Cert.KernelIdeal.Tail

/-- Row b of the first half's column is the array's entry (0, b, 0). -/
theorem half0_at (W : FVec Ideal S2x512x1 .f32) (b : Fin 512) :
    half0 (F := Ideal) W (ix2 b (0 : Fin 1)) = W (ix3 (0 : Fin 2) b (0 : Fin 1)) := by
  unfold half0
  rw [shapeCast_1ab_ab_apply]
  exact extractStridedSlice_apply _ W _ _ (ix3 (0 : Fin 2) b (0 : Fin 1)) (fun a => match a with
    | ⟨0, _⟩ => by show 0 = 0 + 0; rfl
    | ⟨1, _⟩ => by show b.val = 0 + b.val; omega
    | ⟨2, _⟩ => by show 0 = 0 + 0; rfl)

/-- Row b of the second half's column is the array's entry (1, b, 0). -/
theorem half1_at (W : FVec Ideal S2x512x1 .f32) (b : Fin 512) :
    half1 (F := Ideal) W (ix2 b (0 : Fin 1)) = W (ix3 (1 : Fin 2) b (0 : Fin 1)) := by
  unfold half1
  rw [shapeCast_1ab_ab_apply]
  exact extractStridedSlice_apply _ W _ _ (ix3 (1 : Fin 2) b (0 : Fin 1)) (fun a => match a with
    | ⟨0, _⟩ => by show 1 = 1 + 0; rfl
    | ⟨1, _⟩ => by show b.val = 0 + b.val; omega
    | ⟨2, _⟩ => by show 0 = 0 + 0; rfl)

/-- The logarithm of the matching share of query row b. -/
theorem row_at (W4 W5 : FVec Ideal S2x512x1 .f32) (b : Fin 512) :
    Host.log (Host.divf (addf (half0 W5) (half1 W5))
        (subf (addf (half0 W4) (half1 W4)) (broadcastInDim S512x1 ![] bcast_S_S512x1 (constant (F := Ideal) S_ .f32 0x45CB0000#32))))
      (ix2 b (0 : Fin 1))
      = Ideal.log (Ideal.div (W5 (ix3 (0 : Fin 2) b (0 : Fin 1)) + W5 (ix3 (1 : Fin 2) b (0 : Fin 1)))
          (W4 (ix3 (0 : Fin 2) b (0 : Fin 1)) + W4 (ix3 (1 : Fin 2) b (0 : Fin 1)) - Ideal.ofBits .f32 0x45CB0000#32)) := by
  show Ideal.log (Ideal.div (half0 W5 (ix2 b (0 : Fin 1)) + half1 W5 (ix2 b (0 : Fin 1)))
      (half0 W4 (ix2 b (0 : Fin 1)) + half1 W4 (ix2 b (0 : Fin 1)) - Ideal.ofBits .f32 0x45CB0000#32)) = _
  rw [half0_at, half1_at, half0_at, half1_at]

/-- The host's sum over every index of a column from the literal 0. -/
theorem reduce_at (y : FVec Ideal S512x1 .f32) (i : S_.Idx) :
    Host.reduceAdd (F := Ideal) y (constant S_ .f32 0x00000000#32) reducesTo_S512x1_S_d0_1 h_S_ i
      = Ideal.ofBits .f32 0x00000000#32 + ∑ b : Fin 512, y (ix2 b (0 : Fin 1)) := by
  simp only [Host.reduceAdd, Ideal.hostReduceAdd_def]
  rw [Ideal.hostReduceAdd_total reducesTo_S512x1_S_d0_1 (fun b => b.elim0) y _ i, sum_idx2]
  simp only [Fin.sum_univ_one]
  rfl

/-- THE HOST'S LAST LINES: the loss from the two accumulated arrays. -/
theorem tail_at (W4 W5 : FVec Ideal S2x512x1 .f32) :
    tail (F := Ideal) W4 W5 = fun _ =>
      Ideal.div (-(Ideal.ofBits .f32 0x00000000#32 + ∑ b : Fin 512,
          Ideal.log (Ideal.div (W5 (ix3 (0 : Fin 2) b (0 : Fin 1)) + W5 (ix3 (1 : Fin 2) b (0 : Fin 1)))
            (W4 (ix3 (0 : Fin 2) b (0 : Fin 1)) + W4 (ix3 (1 : Fin 2) b (0 : Fin 1)) - Ideal.ofBits .f32 0x45CB0000#32))))
        (Ideal.ofBits .f32 0x44000000#32) := by
  funext i
  unfold tail
  show Ideal.div (-(Host.reduceAdd (F := Ideal) _ (constant S_ .f32 0x00000000#32) reducesTo_S512x1_S_d0_1 h_S_ i))
      (Ideal.ofBits .f32 0x44000000#32) = _
  rw [reduce_at]
  refine congrArg (fun t => Ideal.div (-(Ideal.ofBits .f32 0x00000000#32 + t)) (Ideal.ofBits .f32 0x44000000#32)) ?_
  exact Finset.sum_congr rfl fun b _ => row_at W4 W5 b

end Cert.KernelIdeal.TailAt

end
-- ==== Proof.KernelShare.lean ====
/-
  The kernel's share per query row is num / den.

  The kernel sweeps each half of the memory bank, extended by 3248 padded rows, in 13 tiles of 4096 rows.  A padded row
  adds weight 1 to the total weight and 0 to the matching weight, so the two halves' totals add to den + 6496 and the two
  halves' matching weights add to num.  The weights are positive reals, so subtracting the literal 6496 from the total
  gives den back, and the quotient is num / den.
-/
import proofs.«164127_j1657857376324_2_alg».proof.Proof.Spec
import proofs.«164127_j1657857376324_2_alg».proof.Proof.Sums
import proofs.«164127_j1657857376324_2_alg».proof.Proof.RefSide

noncomputable section

namespace Cert.Nce.KernelShare

open Idealize.ShloMosaic Idealize.ShloMosaic.ValueIdx Cert.Nce

/-- One half's 13 partial sums from 0, over the tile counter as a natural number, are the sum over the 13 tiles. -/
theorem half_sum (g : Fin 100000 → EReal) (p : EReal) (h : Fin 2) :
    (0 : EReal) + ∑ s ∈ Finset.range 13, ∑ l : Fin 4096, Sums.padded g p h (4096 * s + l.val)
      = ∑ t : Fin 13, ∑ l : Fin 4096, Sums.padded g p h (4096 * t.val + l.val) := by
  rw [zero_add]
  exact Sums.sum_tiles_range (fun s => ∑ l : Fin 4096, Sums.padded g p h (4096 * s + l.val))

/-- THE KERNEL'S SHARE: the two halves' matching weights over the two halves' totals less 6496 is num / den. -/
theorem kernel_share (X : SQ.Idx → EReal) (Fe : SB.Idx → EReal) (L : SQL.Idx → BitVec 32) (LF : SBL.Idx → BitVec 32)
    (hX : ∀ i, ∃ r : ℝ, X i = (r : EReal)) (hF : ∀ i, ∃ r : ℝ, Fe i = (r : EReal)) (b : Fin 512) (se sm : Fin 2 → EReal)
    (hse : ∀ h : Fin 2, se h = 0 + ∑ s ∈ Finset.range 13, ∑ l : Fin 4096,
      Sums.padded (fun n => wgt X Fe b n) 1 h (4096 * s + l.val))
    (hsm : ∀ h : Fin 2, sm h = 0 + ∑ s ∈ Finset.range 13, ∑ l : Fin 4096,
      Sums.padded (fun n => if L (ix1 b) = LF (ix1 n) then wgt X Fe b n else 0) 0 h (4096 * s + l.val)) :
    Ideal.div (sm 0 + sm 1) (se 0 + se 1 - Ideal.ofBits .f32 0x45CB0000#32)
      = Ideal.div (num X Fe L LF b) (den X Fe b) := by
  -- the two totals add to the bank's total weight plus 6496 ones
  have Hse : se 0 + se 1 = (∑ n, ((RefSide.wr X Fe b n : ℝ) : EReal)) + (6496 : ℕ) • (1 : EReal) := by
    rw [hse 0, hse 1, half_sum, half_sum]
    have t := Sums.sum_tiles (M := EReal) (fun n => wgt X Fe b n) 1
    rw [Fin.sum_univ_two] at t
    rw [t]
    simp only [RefSide.wgt_eq X Fe hX hF]
  -- the two matching weights add to the bank's matching weight
  have Hsm : sm 0 + sm 1 = ∑ n, if L (ix1 b) = LF (ix1 n) then wgt X Fe b n else 0 := by
    rw [hsm 0, hsm 1, half_sum, half_sum]
    have t := Sums.sum_tiles (M := EReal) (fun n => if L (ix1 b) = LF (ix1 n) then wgt X Fe b n else 0) 0
    rw [Fin.sum_univ_two] at t
    rw [t, smul_zero, add_zero]
  rw [Sums.kernel_ratio (RefSide.wr X Fe b) (fun n => L (ix1 b) = LF (ix1 n)) (se 0) (se 1) (sm 0) (sm 1) Hse, Hsm]
  unfold num den
  simp only [RefSide.wgt_eq X Fe hX hF]

end Cert.Nce.KernelShare

end
-- ==== Proof.KernelLoss.lean ====
/-
  The kernel's result is the loss.

  The host's last lines turn the two accumulated arrays into minus the mean over the query rows of the logarithm
  of (matching weight of both halves) / (total weight of both halves - 6496).  Over finite inputs with
  non-negative query labels the two halves' totals are the total weight of the 100000 memory rows plus 6496
  padding rows of weight 1, and the matching weights are those of the memory rows alone: the share is num / den.
-/
import proofs.«164127_j1657857376324_2_alg».proof.Proof.Tile
import proofs.«164127_j1657857376324_2_alg».proof.Proof.TailAt
import proofs.«164127_j1657857376324_2_alg».proof.Proof.KernelShare

set_option maxRecDepth 16384

noncomputable section

open Idealize.ShloMosaic Idealize.ShloMosaic.TcCoe Idealize.SL.Sem Idealize.ShloMosaic.ValueIdx

namespace Cert.KernelIdeal.KernelLoss

open Cert.KernelIdeal Cert.KernelIdeal.Gen Cert.KernelIdeal.Final Cert.KernelIdeal.Tile Cert.KernelIdeal.Tail Cert.Nce

variable (m : (ℓ : Loc nD τ sig) → Buf (Elt Ideal) ℓ)

theorem kernel_loss (c : Dev nD) (hX : ∀ i, ∃ r : ℝ, Xq m c i = (r : EReal)) (hF : ∀ i, ∃ r : ℝ, Fb m c i = (r : EReal))
    (hL : ∀ i, Lq m c i ≠ 4294967295#32) :
    tail (F := Ideal) (G4 m c) (G5 m c) = fun _ => loss (Xq m c) (Fb m c) (Lq m c) (Lb m c) := by
  refine (TailAt.tail_at (G4 m c) (G5 m c)).trans (funext fun _ => ?_)
  unfold loss
  refine congrArg (fun z => Ideal.div (-(Ideal.ofBits .f32 0x00000000#32 + z)) (Ideal.ofBits .f32 0x44000000#32))
    (Finset.sum_congr rfl fun b _ => congrArg Ideal.log ?_)
  exact KernelShare.kernel_share (Xq m c) (Fb m c) (Lq m c) (Lb m c) hX hF b
    (fun h => G4 m c (ix3 h b (0 : Fin 1))) (fun h => G5 m c (ix3 h b (0 : Fin 1)))
    (fun h => allAt_eq m c h b) (fun h => hitAt_eq m c h b (hL (ix1 b)))

end Cert.KernelIdeal.KernelLoss

end
-- ==== Proof.lean ====
/-
  The certificate: a noise-contrastive loss computed by a kernel that streams the memory bank in two padded
  halves of thirteen tiles, against the plain reference.

  For query row b and memory row n the weight is exp(<x_b, feat_n> / 7000).  The reference normalises the weights
  of a row by their mean, then takes the matching share; the mean cancels, so the share is (matching weight) /
  (total weight).  The kernel accumulates both sums tile by tile, pads each half of the bank with 3248 zero rows
  (weight exp 0 = 1 each, label -1) and takes 6496 off the total afterwards.  Over finite inputs with
  non-negative query labels both programs return minus the mean over the query rows of the logarithm of that
  share: `Cert.Nce.loss`.

  The frames of the two kernel programs and the reference's run are the generated ones; the named constant's
  ledger entry is its statement; the two value legs meet at `Cert.Nce.loss`.
-/
import proofs.«164127_j1657857376324_2_alg».proof.Defs
import proofs.«164127_j1657857376324_2_alg».proof.Proof.Gen.Kernel
import proofs.«164127_j1657857376324_2_alg».proof.Proof.Gen.Kernel.Skeleton
import proofs.«164127_j1657857376324_2_alg».proof.Proof.Gen.Kernel.Launch
import proofs.«164127_j1657857376324_2_alg».proof.Proof.Gen.Kernel.Points
import proofs.«164127_j1657857376324_2_alg».proof.Proof.Gen.Kernel.Frame
import proofs.«164127_j1657857376324_2_alg».proof.Proof.Gen.KernelIdeal
import proofs.«164127_j1657857376324_2_alg».proof.Proof.Gen.KernelIdeal.Skeleton
import proofs.«164127_j1657857376324_2_alg».proof.Proof.Gen.KernelIdeal.Launch
import proofs.«164127_j1657857376324_2_alg».proof.Proof.Gen.KernelIdeal.Points
import proofs.«164127_j1657857376324_2_alg».proof.Proof.Gen.KernelIdeal.Frame
import proofs.«164127_j1657857376324_2_alg».proof.Proof.Gen.ReferenceIdeal
import proofs.«164127_j1657857376324_2_alg».proof.Proof.Gen.ReferenceIdeal.Run
import proofs.«164127_j1657857376324_2_alg».proof.Proof.Gen.ReferenceIdeal.Read
import proofs.«164127_j1657857376324_2_alg».proof.Proof.Gen.Pre_finite_inputs
import proofs.«164127_j1657857376324_2_alg».proof.Proof.PreFacts
import proofs.«164127_j1657857376324_2_alg».proof.Proof.RefSide
import proofs.«164127_j1657857376324_2_alg».proof.Proof.KernelLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewritten constant: the scale, named one seven-thousandth. -/
theorem preserves : Cert.preserves_Kernel_KernelIdeal :=
  IdealRules.named_const.statement Cert.KernelIdeal.κ "inv_7000" .f32 0x3915CBEC#32 ((1 / 7000 : ℝ) : EReal) rfl

/-- Both idealized programs end with the loss of the (agreeing) argument arrays. -/
theorem algebraic : Cert.algebraic_KernelIdeal_ReferenceIdeal := by
  intro m ρ m' ρ' hpre hagree
  refine ⟨fun c => fun _ => Cert.Nce.loss (Cert.KernelIdeal.Tile.Xq m c) (Cert.KernelIdeal.Tile.Fb m c)
    (Cert.KernelIdeal.Tile.Lq m c) (Cert.KernelIdeal.Tile.Lb m c), ?_, ?_⟩
  · refine (θ_run Cert.KernelIdeal.defs _ _).mono (fun _ h c => ⟨(h c).1.trans ?_, (h c).2⟩) (Cert.KernelIdeal.Final.run m ρ)
    obtain ⟨hX, hF, hL⟩ := Cert.Nce.PreFacts.of_pre _ _ _ _ (hpre c)
    exact Cert.KernelIdeal.KernelLoss.kernel_loss m c hX hF hL
  · refine (θ_run Cert.ReferenceIdeal.defs _ _).mono (fun _ h c => ⟨(h c).1.trans ?_, (h c).2⟩)
      (Cert.ReferenceIdeal.Value.run (F := Ideal) m' ρ')
    obtain ⟨hX, hF, hL⟩ := Cert.Nce.PreFacts.of_pre _ _ _ _ (hpre c)
    rw [(hagree c).1, (hagree c).2.1, (hagree c).2.2.1, (hagree c).2.2.2]
    exact (Cert.ReferenceIdeal.Read.val_main_v24_eq _ _ _ _).trans (Cert.Nce.RefSide.ref_eq_loss _ _ _ _ hX hF)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
